-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x256 : Shape := ⟨3, ![4, 65536, 256]⟩
abbrev S4x256 : Shape := ⟨2, ![4, 256]⟩
abbrev S4x1 : Shape := ⟨2, ![4, 1]⟩
abbrev S4x3 : Shape := ⟨2, ![4, 3]⟩
abbrev S4x65536 : Shape := ⟨2, ![4, 65536]⟩
abbrev S65536 : Shape := ⟨1, ![65536]⟩
abbrev S16 : Shape := ⟨1, ![16]⟩
abbrev S_ : Shape := ⟨0, ![]⟩

class Facts : Prop where
  bcast_S_S4x65536x256 : S_.BroadcastsInDim S4x65536x256 (![] : Fin 0 → Fin S4x65536x256.rank)
  reducesTo_S4x65536x256_S_d0_1_2 : S4x65536x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S4x1 : S_.BroadcastsInDim S4x1 (![] : Fin 0 → Fin S4x1.rank)
  reducesTo_S4x1_S_d0_1 : S4x1.ReducesTo [0, 1] S_
  bcast_S_S4x3 : S_.BroadcastsInDim S4x3 (![] : Fin 0 → Fin S4x3.rank)
  reducesTo_S4x3_S_d0_1 : S4x3.ReducesTo [0, 1] S_
  bcast_S_S4x65536 : S_.BroadcastsInDim S4x65536 (![] : Fin 0 → Fin S4x65536.rank)
  reducesTo_S4x65536_S_d0_1 : S4x65536.ReducesTo [0, 1] S_

variable [Facts]

def fn_part2 {F : FTy → Type} [FloatOps F] (main_arg7 : FVec F S4x256 .f32) (main_arg8 : FVec F S4x256 .f32) (main_v33 : IVec S_ 1) : IVec S_ 1 :=
  let main_v34 : FVec F S4x256 .f32 := Host.absf main_arg7
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  main_v43

def fn_part1 {F : FTy → Type} [FloatOps F] (main_arg4 : FVec F S4x3 .f32) (main_arg5 : FVec F S4x1 .f32) (main_arg6 : FVec F S4x65536 .f32) (main_arg7 : FVec F S4x256 .f32) (main_arg8 : FVec F S4x256 .f32) (main_v13 : IVec S_ 1) (main_v16 : IVec S4x1 1) : IVec S_ 1 :=
  let main_c_5 : IVec S_ 1 := constantI S_ 1 1#1
  let main_v17 : IVec S_ 1 := (fun x v => Host.reduce IntOp.andi x v reducesTo_S4x1_S_d0_1 h_S_) main_v16 main_c_5
  let main_v18 : IVec S_ 1 := andi main_v13 main_v17
  let main_v19 : FVec F S4x3 .f32 := Host.absf main_arg4
  let main_cst_6 : FVec F S_ .f32 := constant S_ .f32 0x7F800000#32
  let main_v20 : FVec F S4x3 .f32 := broadcastInDim S4x3 ![] bcast_S_S4x3 main_cst_6
  let main_v21 : IVec S4x3 1 := cmpf .olt main_v19 main_v20
  let main_c_7 : IVec S_ 1 := constantI S_ 1 1#1
  let main_v22 : IVec S_ 1 := (fun x v => Host.reduce IntOp.andi x v reducesTo_S4x3_S_d0_1 h_S_) main_v21 main_c_7
  let main_v23 : IVec S_ 1 := andi main_v18 main_v22
  let main_v24 : FVec F S4x1 .f32 := Host.absf main_arg5
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  let main_v29 : FVec F S4x65536 .f32 := Host.absf main_arg6
  let main_cst_10 : FVec F S_ .f32 := constant S_ .f32 0x7F800000#32
  let main_v30 : FVec F S4x65536 .f32 := broadcastInDim S4x65536 ![] bcast_S_S4x65536 main_cst_10
  let main_v31 : IVec S4x65536 1 := cmpf .olt main_v29 main_v30
  let main_c_11 : IVec S_ 1 := constantI S_ 1 1#1
  let main_v32 : IVec S_ 1 := (fun x v => Host.reduce IntOp.andi x v reducesTo_S4x65536_S_d0_1 h_S_) main_v31 main_c_11
  let main_v33 : IVec S_ 1 := andi main_v28 main_v32
  fn_part2 (F := F) main_arg7 main_arg8 main_v33

def fn {F : FTy → Type} [FloatOps F] (main_arg0 : FVec F S4x65536x256 .f32) (main_arg1 : FVec F S4x256 .f32) (main_arg2 : FVec F S4x1 .f32) (main_arg3 : FVec F S4x1 .f32) (main_arg4 : FVec F S4x3 .f32) (main_arg5 : FVec F S4x1 .f32) (main_arg6 : FVec F S4x65536 .f32) (main_arg7 : FVec F S4x256 .f32) (main_arg8 : FVec F S4x256 .f32) (main_arg9 : IVec S65536 32) (main_arg10 : IVec S16 32) : IVec S_ 1 :=
  let main_v0 : FVec F S4x65536x256 .f32 := Host.absf main_arg0
  let main_cst : FVec F S_ .f32 := constant S_ .f32 0x7F800000#32
  let main_v1 : FVec F S4x65536x256 .f32 := broadcastInDim S4x65536x256 ![] bcast_S_S4x65536x256 main_cst
  let main_v2 : IVec S4x65536x256 1 := cmpf .olt main_v0 main_v1
  let main_c : IVec S_ 1 := constantI S_ 1 1#1
  let main_v3 : IVec S_ 1 := (fun x v => Host.reduce IntOp.andi x v reducesTo_S4x65536x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S4x1 .f32 := Host.absf main_arg2
  let main_cst_2 : FVec F S_ .f32 := constant S_ .f32 0x7F800000#32
  let main_v10 : FVec F S4x1 .f32 := broadcastInDim S4x1 ![] bcast_S_S4x1 main_cst_2
  let main_v11 : IVec S4x1 1 := cmpf .olt main_v9 main_v10
  let main_c_3 : IVec S_ 1 := constantI S_ 1 1#1
  let main_v12 : IVec S_ 1 := (fun x v => Host.reduce IntOp.andi x v reducesTo_S4x1_S_d0_1 h_S_) main_v11 main_c_3
  let main_v13 : IVec S_ 1 := andi main_v8 main_v12
  let main_v14 : FVec F S4x1 .f32 := Host.absf main_arg3
  let main_cst_4 : FVec F S_ .f32 := constant S_ .f32 0x7F800000#32
  let main_v15 : FVec F S4x1 .f32 := broadcastInDim S4x1 ![] bcast_S_S4x1 main_cst_4
  let main_v16 : IVec S4x1 1 := cmpf .olt main_v14 main_v15
  fn_part1 (F := F) main_arg4 main_arg5 main_arg6 main_arg7 main_arg8 main_v13 main_v16
-- ==== Kernel.lean ====
abbrev S4x65536x256 : Shape := ⟨3, ![4, 65536, 256]⟩
abbrev S4x256 : Shape := ⟨2, ![4, 256]⟩
abbrev S4x1 : Shape := ⟨2, ![4, 1]⟩
abbrev S4x3 : Shape := ⟨2, ![4, 3]⟩
abbrev S4x65536 : Shape := ⟨2, ![4, 65536]⟩
abbrev S65536 : Shape := ⟨1, ![65536]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S4x16x256 : Shape := ⟨3, ![4, 16, 256]⟩
abbrev S4x1x256 : Shape := ⟨3, ![4, 1, 256]⟩
abbrev S4x16 : Shape := ⟨2, ![4, 16]⟩
abbrev S4 : Shape := ⟨1, ![4]⟩
abbrev S65536x1 : Shape := ⟨2, ![65536, 1]⟩
abbrev S4x65538 : Shape := ⟨2, ![4, 65538]⟩
abbrev S4x65536x1 : Shape := ⟨3, ![4, 65536, 1]⟩
abbrev S1x2048x256 : Shape := ⟨3, ![1, 2048, 256]⟩
abbrev S1x2048x1 : Shape := ⟨3, ![1, 2048, 1]⟩
abbrev S1x1x256 : Shape := ⟨3, ![1, 1, 256]⟩

abbrev nBuf : Space → Nat
  | .hbm => 136
  | .vmem => 10
  | .smem => 0
  | _ => 0

abbrev hbmTy0_0 (i : Nat) : BufTy := match i % 128 with
  | 0 => ⟨S4x65536x256, .f32⟩
  | 1 => ⟨S4x256, .f32⟩
  | 2 => ⟨S4x1, .f32⟩
  | 3 => ⟨S4x1, .f32⟩
  | 4 => ⟨S4x3, .f32⟩
  | 5 => ⟨S4x1, .f32⟩
  | 6 => ⟨S4x65536, .f32⟩
  | 7 => ⟨S4x256, .f32⟩
  | 8 => ⟨S4x256, .f32⟩
  | 9 => ⟨S65536, .i32⟩
  | 10 => ⟨S16, .i32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S1, .i32⟩
  | 20 => ⟨S_, .i32⟩
  | 21 => ⟨S16x1, .i32⟩
  | 22 => ⟨S16x1, .i1⟩
  | 23 => ⟨S1x1, .i32⟩
  | 24 => ⟨S16x1, .i32⟩
  | 25 => ⟨S16x1, .i1⟩
  | 26 => ⟨S16x1, .i1⟩
  | 27 => ⟨S_, .i1⟩
  | 28 => ⟨S16, .i1⟩
  | 29 => ⟨S4x16x256, .f32⟩
  | 30 => ⟨S4x16x256, .i1⟩
  | 31 => ⟨S_, .f32⟩
  | 32 => ⟨S4x16x256, .f32⟩
  | 33 => ⟨S4x16x256, .f32⟩
  | 34 => ⟨S_, .f32⟩
  | 35 => ⟨S4x16x256, .f32⟩
  | 36 => ⟨S4x16x256, .f32⟩
  | 37 => ⟨S4x1x256, .f32⟩
  | 38 => ⟨S_, .f32⟩
  | 39 => ⟨S4x1x256, .f32⟩
  | 40 => ⟨S4x1x256, .f32⟩
  | 41 => ⟨S4x16x256, .f32⟩
  | 42 => ⟨S4x16x256, .f32⟩
  | 43 => ⟨S_, .f32⟩
  | 44 => ⟨S4x16, .f32⟩
  | 45 => ⟨S_, .f32⟩
  | 46 => ⟨S4x16x256, .f32⟩
  | 47 => ⟨S4x16x256, .f32⟩
  | 48 => ⟨S4x16x256, .f32⟩
  | 49 => ⟨S_, .f32⟩
  | 50 => ⟨S4x16, .f32⟩
  | 51 => ⟨S4x16, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4, .f32⟩
  | 58 => ⟨S4x1, .f32⟩
  | 59 => ⟨S4x1, .f32⟩
  | 60 => ⟨S4x16, .f32⟩
  | 61 => ⟨S4x16, .f32⟩
  | 62 => ⟨S_, .f32⟩
  | 63 => ⟨S4x16, .f32⟩
  | 64 => ⟨S4x16, .f32⟩
  | 65 => ⟨S4x16, .f32⟩
  | 66 => ⟨S_, .f32⟩
  | 67 => ⟨S4x16, .f32⟩
  | 68 => ⟨S4x16, .f32⟩
  | 69 => ⟨S4x16, .f32⟩
  | 70 => ⟨S4x16, .f32⟩
  | 71 => ⟨S_, .f32⟩
  | 72 => ⟨S4x16, .f32⟩
  | 73 => ⟨S4x16, .f32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S1, .i32⟩
  | 83 => ⟨S_, .i32⟩
  | 84 => ⟨S65536x1, .i32⟩
  | 85 => ⟨S65536x1, .i1⟩
  | 86 => ⟨S1x1, .i32⟩
  | 87 => ⟨S65536x1, .i32⟩
  | 88 => ⟨S65536x1, .i1⟩
  | 89 => ⟨S65536x1, .i1⟩
  | 90 => ⟨S_, .i1⟩
  | 91 => ⟨S65536, .i1⟩
  | 92 => ⟨S4x65536, .f32⟩
  | 93 => ⟨S4x65536, .i1⟩
  | 94 => ⟨S_, .f32⟩
  | 95 => ⟨S4x65536, .f32⟩
  | 96 => ⟨S4x65536, .f32⟩
  | 97 => ⟨S4x65536, .f32⟩
  | 98 => ⟨S4x65536, .f32⟩
  | 99 => ⟨S_, .f32⟩
  | 100 => ⟨S4x1, .f32⟩
  | 101 => ⟨S4x1, .f32⟩
  | 102 => ⟨S4x65536, .f32⟩
  | 103 => ⟨S4x65536, .f32⟩
  | 104 => ⟨S4x65536, .f32⟩
  | 105 => ⟨S4x1, .f32⟩
  | 106 => ⟨S4x1, .f32⟩
  | 107 => ⟨S4x65538, .f32⟩
  | 108 => ⟨S4x1, .f32⟩
  | 109 => ⟨S4x65536, .f32⟩
  | 110 => ⟨S4x65536, .f32⟩
  | 111 => ⟨S4x65536, .f32⟩
  | 112 => ⟨S4x1, .f32⟩
  | 113 => ⟨S4x65536, .f32⟩
  | 114 => ⟨S4x65536, .f32⟩
  | 115 => ⟨S4x65536, .f32⟩
  | 116 => ⟨S4x65536, .f32⟩
  | 117 => ⟨S4x1, .f32⟩
  | 118 => ⟨S4x65536, .f32⟩
  | 119 => ⟨S4x65536, .f32⟩
  | 120 => ⟨S4x65536, .f32⟩
  | 121 => ⟨S4x65536, .f32⟩
  | 122 => ⟨S4x65536, .f32⟩
  | 123 => ⟨S4x65536, .f32⟩
  | 124 => ⟨S_, .f32⟩
  | 125 => ⟨S4, .f32⟩
  | 126 => ⟨S4x1, .f32⟩
  | 127 => ⟨S_, .f32⟩
  | _ => ⟨S4x65536x256, .f32⟩

abbrev hbmTy0_1 (i : Nat) : BufTy := match i % 128 with
  | 0 => ⟨S4x1, .f32⟩
  | 1 => ⟨S4x1, .f32⟩
  | 2 => ⟨S4x65536, .f32⟩
  | 3 => ⟨S4x65536, .f32⟩
  | 4 => ⟨S4x65536x1, .f32⟩
  | 5 => ⟨S4x1x256, .f32⟩
  | 6 => ⟨S4x1x256, .f32⟩
  | 7 => ⟨S4x65536x256, .f32⟩
  | _ => ⟨S4x65536x256, .f32⟩

abbrev hbmTy (i : Nat) : BufTy := match i / 128 with
  | 0 => hbmTy0_0 i
  | 1 => hbmTy0_1 i
  | _ => ⟨S4x65536x256, .f32⟩

abbrev bufTy : (tb : Table) → Fin (tcTables nBuf tb) → BufTy
  | .hbm, ⟨i, _⟩ => hbmTy i
  | .local _ .vmem, ⟨0, _⟩ => ⟨S1x2048x256, .f32⟩
  | .local _ .vmem, ⟨1, _⟩ => ⟨S1x2048x256, .f32⟩
  | .local _ .vmem, ⟨2, _⟩ => ⟨S1x2048x1, .f32⟩
  | .local _ .vmem, ⟨3, _⟩ => ⟨S1x2048x1, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x2048x256, .f32⟩
  | .local _ .vmem, ⟨9, _⟩ => ⟨S1x2048x256, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_cst_2 : Ref sig .tc := ⟨.hbm, 45, rfl⟩
abbrev main_v9 : Ref sig .tc := ⟨.hbm, 46, rfl⟩
abbrev main_v10 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_v11 : Ref sig .tc := ⟨.hbm, 51, rfl⟩
abbrev main_cst_3 : Ref sig .tc := ⟨.hbm, 52, rfl⟩
abbrev main_v12 : Ref sig .tc := ⟨.hbm, 53, rfl⟩
abbrev main_v13 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_call2_v2 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_4 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst_5 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩
abbrev main_v25 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_7 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_cst_8 : Ref sig .tc := ⟨.hbm, 124, rfl⟩
abbrev main_v53 : Ref sig .tc := ⟨.hbm, 125, rfl⟩
abbrev main_v54 : Ref sig .tc := ⟨.hbm, 126, rfl⟩
abbrev main_cst_9 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S4x16x256_1 : S16.BroadcastsInDim S4x16x256 (![1] : Fin 1 → Fin S4x16x256.rank)
  bcast_S_S4x16x256 : S_.BroadcastsInDim S4x16x256 (![] : Fin 0 → Fin S4x16x256.rank)
  bcast_S4x256_S4x1x256_0_2 : S4x256.BroadcastsInDim S4x1x256 (![0, 2] : Fin 2 → Fin S4x1x256.rank)
  bcast_S_S4x1x256 : S_.BroadcastsInDim S4x1x256 (![] : Fin 0 → Fin S4x1x256.rank)
  bcast_S4x1x256_S4x16x256_0_1_2 : S4x1x256.BroadcastsInDim S4x16x256 (![0, 1, 2] : Fin 3 → Fin S4x16x256.rank)
  reducesTo_S4x16x256_S4x16_d2 : S4x16x256.ReducesTo [2] S4x16
  bcast_S_S4x256 : S_.BroadcastsInDim S4x256 (![] : Fin 0 → Fin S4x256.rank)
  reducesTo_S4x256_S4_d1 : S4x256.ReducesTo [1] S4
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  bcast_S_S4x16 : S_.BroadcastsInDim S4x16 (![] : Fin 0 → Fin S4x16.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S4x65536_1 : S65536.BroadcastsInDim S4x65536 (![1] : Fin 1 → Fin S4x65536.rank)
  bcast_S_S4x65536 : S_.BroadcastsInDim S4x65536 (![] : Fin 0 → Fin S4x65536.rank)
  bcast_S4x1_S4x65536_0_1 : S4x1.BroadcastsInDim S4x65536 (![0, 1] : Fin 2 → Fin S4x65536.rank)
  bcast_S_S4x1 : S_.BroadcastsInDim S4x1 (![] : Fin 0 → Fin S4x1.rank)
  slices_S4x65536_S4x1_0_65535 : S4x65536.Slices ![0, 65535] S4x1
  slices_S4x65536_S4x1_0_0 : S4x65536.Slices ![0, 0] S4x1
  concatenates_S4x1_S4x65536_S4x1_S4x65538_d1 : Shape.Concatenates [S4x1, S4x65536, S4x1] S4x65538 1
  slices_S4x3_S4x1_0_0 : S4x3.Slices ![0, 0] S4x1
  slices_S4x65538_S4x65536_0_0 : S4x65538.Slices ![0, 0] S4x65536
  slices_S4x3_S4x1_0_1 : S4x3.Slices ![0, 1] S4x1
  slices_S4x65538_S4x65536_0_1 : S4x65538.Slices ![0, 1] S4x65536
  slices_S4x3_S4x1_0_2 : S4x3.Slices ![0, 2] S4x1
  slices_S4x65538_S4x65536_0_2 : S4x65538.Slices ![0, 2] S4x65536
  reducesTo_S4x65536_S4_d1 : S4x65536.ReducesTo [1] S4
  shapeCasts_S4x65536_S4x65536x1 : S4x65536.ShapeCasts S4x65536x1
  shapeCasts_S4x256_S4x1x256 : S4x256.ShapeCasts S4x1x256
  inb_S1x2048x256_S1x2048x256_0_0_0 : ∀ a, (![0, 0, 0] : Fin 3 → Nat) a + S1x2048x256.size a ≤ S1x2048x256.size a
  h_S1x2048x256 : 0 < S1x2048x256.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x2048x1_S1x2048x256 : S1x2048x1.Broadcasts S1x2048x256
  broadcasts_S1x1x256_S1x2048x256 : S1x1x256.Broadcasts S1x2048x256
  gather_S4x65536x256_S16x1_S4x16x256_02_1_n_n_1_1_41256_wf : GatherDims.WF S4x65536x256 S16x1 S4x16x256 [0, 2] [1] [] [1] [] 1 ![4, 1, 256]
  gather_S4x16_S65536x1_S4x65536_0_1_n_n_1_1_41_wf : GatherDims.WF S4x16 S65536x1 S4x65536 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x65536x256.size a
  hwx0_0 : ∀ i : grid0.Coords, EltTy.bits .f32 = 32 ∨ (Rect.block (s := S4x65536x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S4x65536x1.size a
  hwx0_1 : ∀ i : grid0.Coords, EltTy.bits .f32 = 32 ∨ (Rect.block (s := S4x65536x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S4x1x256.size a
  hwx0_3 : ∀ i : grid0.Coords, EltTy.bits .f32 = 32 ∨ (Rect.block (s := S4x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S4x65536x256.size a
  hwx0_4 : ∀ i : grid0.Coords, EltTy.bits .f32 = 32 ∨ (Rect.block (s := S4x65536x256) S1x2048x256.size (cc0_transform_4 i) (hinb0_4 i)).WholeWords (EltTy.packing .f32)

variable [Facts₀]

def gather_S4x65536x256_S16x1_S4x16x256_02_1_n_n_1_1_41256 : GatherDims S4x65536x256 S16x1 S4x16x256 where
  offsetDims := [0, 2]
  collapsedSliceDims := [1]
  operandBatchingDims := []
  startIndicesBatchingDims := []
  startIndexMap := [1]
  indexVectorDim := 1
  sliceSizes := ![4, 1, 256]
  wf := gather_S4x65536x256_S16x1_S4x16x256_02_1_n_n_1_1_41256_wf
def gather_S4x16_S65536x1_S4x65536_0_1_n_n_1_1_41 : GatherDims S4x16 S65536x1 S4x65536 where
  offsetDims := [0]
  collapsedSliceDims := [1]
  operandBatchingDims := []
  startIndicesBatchingDims := []
  startIndexMap := [1]
  indexVectorDim := 1
  sliceSizes := ![4, 1]
  wf := gather_S4x16_S65536x1_S4x65536_0_1_n_n_1_1_41_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v62) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x65536x256 : Shape := ⟨3, ![4, 65536, 256]⟩
abbrev S4x256 : Shape := ⟨2, ![4, 256]⟩
abbrev S4x1 : Shape := ⟨2, ![4, 1]⟩
abbrev S4x3 : Shape := ⟨2, ![4, 3]⟩
abbrev S4x65536 : Shape := ⟨2, ![4, 65536]⟩
abbrev S65536 : Shape := ⟨1, ![65536]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S4x16x256 : Shape := ⟨3, ![4, 16, 256]⟩
abbrev S4x1x256 : Shape := ⟨3, ![4, 1, 256]⟩
abbrev S4x16 : Shape := ⟨2, ![4, 16]⟩
abbrev S4 : Shape := ⟨1, ![4]⟩
abbrev S65536x1 : Shape := ⟨2, ![65536, 1]⟩
abbrev S4x65538 : Shape := ⟨2, ![4, 65538]⟩
abbrev S4x65536x1 : Shape := ⟨3, ![4, 65536, 1]⟩

abbrev nBuf : Space → Nat
  | .hbm => 147
  | .vmem => 0
  | .smem => 0
  | _ => 0

abbrev hbmTy0_0 (i : Nat) : BufTy := match i % 128 with
  | 0 => ⟨S4x65536x256, .f32⟩
  | 1 => ⟨S4x256, .f32⟩
  | 2 => ⟨S4x1, .f32⟩
  | 3 => ⟨S4x1, .f32⟩
  | 4 => ⟨S4x3, .f32⟩
  | 5 => ⟨S4x1, .f32⟩
  | 6 => ⟨S4x65536, .f32⟩
  | 7 => ⟨S4x256, .f32⟩
  | 8 => ⟨S4x256, .f32⟩
  | 9 => ⟨S65536, .i32⟩
  | 10 => ⟨S16, .i32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S1, .i32⟩
  | 20 => ⟨S_, .i32⟩
  | 21 => ⟨S16x1, .i32⟩
  | 22 => ⟨S16x1, .i1⟩
  | 23 => ⟨S1x1, .i32⟩
  | 24 => ⟨S16x1, .i32⟩
  | 25 => ⟨S16x1, .i1⟩
  | 26 => ⟨S16x1, .i1⟩
  | 27 => ⟨S_, .i1⟩
  | 28 => ⟨S16, .i1⟩
  | 29 => ⟨S4x16x256, .f32⟩
  | 30 => ⟨S4x16x256, .i1⟩
  | 31 => ⟨S_, .f32⟩
  | 32 => ⟨S4x16x256, .f32⟩
  | 33 => ⟨S4x16x256, .f32⟩
  | 34 => ⟨S_, .f32⟩
  | 35 => ⟨S4x16x256, .f32⟩
  | 36 => ⟨S4x16x256, .f32⟩
  | 37 => ⟨S4x1x256, .f32⟩
  | 38 => ⟨S_, .f32⟩
  | 39 => ⟨S4x1x256, .f32⟩
  | 40 => ⟨S4x1x256, .f32⟩
  | 41 => ⟨S4x16x256, .f32⟩
  | 42 => ⟨S4x16x256, .f32⟩
  | 43 => ⟨S_, .f32⟩
  | 44 => ⟨S4x16, .f32⟩
  | 45 => ⟨S_, .f32⟩
  | 46 => ⟨S4x16x256, .f32⟩
  | 47 => ⟨S4x16x256, .f32⟩
  | 48 => ⟨S4x16x256, .f32⟩
  | 49 => ⟨S_, .f32⟩
  | 50 => ⟨S4x16, .f32⟩
  | 51 => ⟨S4x16, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4, .f32⟩
  | 58 => ⟨S4x1, .f32⟩
  | 59 => ⟨S4x1, .f32⟩
  | 60 => ⟨S4x16, .f32⟩
  | 61 => ⟨S4x16, .f32⟩
  | 62 => ⟨S_, .f32⟩
  | 63 => ⟨S4x16, .f32⟩
  | 64 => ⟨S4x16, .f32⟩
  | 65 => ⟨S4x16, .f32⟩
  | 66 => ⟨S_, .f32⟩
  | 67 => ⟨S4x16, .f32⟩
  | 68 => ⟨S4x16, .f32⟩
  | 69 => ⟨S4x16, .f32⟩
  | 70 => ⟨S4x16, .f32⟩
  | 71 => ⟨S_, .f32⟩
  | 72 => ⟨S4x16, .f32⟩
  | 73 => ⟨S4x16, .f32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S1, .i32⟩
  | 83 => ⟨S_, .i32⟩
  | 84 => ⟨S65536x1, .i32⟩
  | 85 => ⟨S65536x1, .i1⟩
  | 86 => ⟨S1x1, .i32⟩
  | 87 => ⟨S65536x1, .i32⟩
  | 88 => ⟨S65536x1, .i1⟩
  | 89 => ⟨S65536x1, .i1⟩
  | 90 => ⟨S_, .i1⟩
  | 91 => ⟨S65536, .i1⟩
  | 92 => ⟨S4x65536, .f32⟩
  | 93 => ⟨S4x65536, .i1⟩
  | 94 => ⟨S_, .f32⟩
  | 95 => ⟨S4x65536, .f32⟩
  | 96 => ⟨S4x65536, .f32⟩
  | 97 => ⟨S4x65536, .f32⟩
  | 98 => ⟨S4x65536, .f32⟩
  | 99 => ⟨S_, .f32⟩
  | 100 => ⟨S4x1, .f32⟩
  | 101 => ⟨S4x1, .f32⟩
  | 102 => ⟨S4x65536, .f32⟩
  | 103 => ⟨S4x65536, .f32⟩
  | 104 => ⟨S4x65536, .f32⟩
  | 105 => ⟨S4x1, .f32⟩
  | 106 => ⟨S4x1, .f32⟩
  | 107 => ⟨S4x65538, .f32⟩
  | 108 => ⟨S4x1, .f32⟩
  | 109 => ⟨S4x65536, .f32⟩
  | 110 => ⟨S4x65536, .f32⟩
  | 111 => ⟨S4x65536, .f32⟩
  | 112 => ⟨S4x1, .f32⟩
  | 113 => ⟨S4x65536, .f32⟩
  | 114 => ⟨S4x65536, .f32⟩
  | 115 => ⟨S4x65536, .f32⟩
  | 116 => ⟨S4x65536, .f32⟩
  | 117 => ⟨S4x1, .f32⟩
  | 118 => ⟨S4x65536, .f32⟩
  | 119 => ⟨S4x65536, .f32⟩
  | 120 => ⟨S4x65536, .f32⟩
  | 121 => ⟨S4x65536, .f32⟩
  | 122 => ⟨S4x65536, .f32⟩
  | 123 => ⟨S4x65536, .f32⟩
  | 124 => ⟨S_, .f32⟩
  | 125 => ⟨S4, .f32⟩
  | 126 => ⟨S4x1, .f32⟩
  | 127 => ⟨S_, .f32⟩
  | _ => ⟨S4x65536x256, .f32⟩

abbrev hbmTy0_1 (i : Nat) : BufTy := match i % 128 with
  | 0 => ⟨S4x1, .f32⟩
  | 1 => ⟨S4x1, .f32⟩
  | 2 => ⟨S4x65536, .f32⟩
  | 3 => ⟨S4x65536, .f32⟩
  | 4 => ⟨S4x65536x1, .f32⟩
  | 5 => ⟨S4x1x256, .f32⟩
  | 6 => ⟨S4x65536x256, .f32⟩
  | 7 => ⟨S4x65536x256, .f32⟩
  | 8 => ⟨S4x65536x256, .f32⟩
  | 9 => ⟨S4x65536x1, .f32⟩
  | 10 => ⟨S4x1x256, .f32⟩
  | 11 => ⟨S4x65536x256, .f32⟩
  | 12 => ⟨S4x65536x256, .f32⟩
  | 13 => ⟨S4x65536x256, .f32⟩
  | 14 => ⟨S_, .f32⟩
  | 15 => ⟨S4x65536x256, .f32⟩
  | 16 => ⟨S4x65536x256, .f32⟩
  | 17 => ⟨S4x65536x256, .f32⟩
  | 18 => ⟨S4x65536x256, .f32⟩
  | _ => ⟨S4x65536x256, .f32⟩

abbrev hbmTy (i : Nat) : BufTy := match i / 128 with
  | 0 => hbmTy0_0 i
  | 1 => hbmTy0_1 i
  | _ => ⟨S4x65536x256, .f32⟩

abbrev bufTy : (tb : Table) → Fin (tcTables nBuf tb) → BufTy
  | .hbm, ⟨i, _⟩ => hbmTy i
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_cst_2 : Ref sig .tc := ⟨.hbm, 45, rfl⟩
abbrev main_v9 : Ref sig .tc := ⟨.hbm, 46, rfl⟩
abbrev main_v10 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_v11 : Ref sig .tc := ⟨.hbm, 51, rfl⟩
abbrev main_cst_3 : Ref sig .tc := ⟨.hbm, 52, rfl⟩
abbrev main_v12 : Ref sig .tc := ⟨.hbm, 53, rfl⟩
abbrev main_v13 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_call2_v2 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_4 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst_5 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩
abbrev main_v25 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_7 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_cst_8 : Ref sig .tc := ⟨.hbm, 124, rfl⟩
abbrev main_v53 : Ref sig .tc := ⟨.hbm, 125, rfl⟩
abbrev main_v54 : Ref sig .tc := ⟨.hbm, 126, rfl⟩
abbrev main_cst_9 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_10 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S4x16x256_1 : S16.BroadcastsInDim S4x16x256 (![1] : Fin 1 → Fin S4x16x256.rank)
  bcast_S_S4x16x256 : S_.BroadcastsInDim S4x16x256 (![] : Fin 0 → Fin S4x16x256.rank)
  bcast_S4x256_S4x1x256_0_2 : S4x256.BroadcastsInDim S4x1x256 (![0, 2] : Fin 2 → Fin S4x1x256.rank)
  bcast_S_S4x1x256 : S_.BroadcastsInDim S4x1x256 (![] : Fin 0 → Fin S4x1x256.rank)
  bcast_S4x1x256_S4x16x256_0_1_2 : S4x1x256.BroadcastsInDim S4x16x256 (![0, 1, 2] : Fin 3 → Fin S4x16x256.rank)
  reducesTo_S4x16x256_S4x16_d2 : S4x16x256.ReducesTo [2] S4x16
  bcast_S_S4x256 : S_.BroadcastsInDim S4x256 (![] : Fin 0 → Fin S4x256.rank)
  reducesTo_S4x256_S4_d1 : S4x256.ReducesTo [1] S4
  bcast_S4_S4x1_0 : S4.BroadcastsInDim S4x1 (![0] : Fin 1 → Fin S4x1.rank)
  bcast_S4x1_S4x16_0_1 : S4x1.BroadcastsInDim S4x16 (![0, 1] : Fin 2 → Fin S4x16.rank)
  bcast_S_S4x16 : S_.BroadcastsInDim S4x16 (![] : Fin 0 → Fin S4x16.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S4x65536_1 : S65536.BroadcastsInDim S4x65536 (![1] : Fin 1 → Fin S4x65536.rank)
  bcast_S_S4x65536 : S_.BroadcastsInDim S4x65536 (![] : Fin 0 → Fin S4x65536.rank)
  bcast_S4x1_S4x65536_0_1 : S4x1.BroadcastsInDim S4x65536 (![0, 1] : Fin 2 → Fin S4x65536.rank)
  bcast_S_S4x1 : S_.BroadcastsInDim S4x1 (![] : Fin 0 → Fin S4x1.rank)
  slices_S4x65536_S4x1_0_65535 : S4x65536.Slices ![0, 65535] S4x1
  slices_S4x65536_S4x1_0_0 : S4x65536.Slices ![0, 0] S4x1
  concatenates_S4x1_S4x65536_S4x1_S4x65538_d1 : Shape.Concatenates [S4x1, S4x65536, S4x1] S4x65538 1
  slices_S4x3_S4x1_0_0 : S4x3.Slices ![0, 0] S4x1
  slices_S4x65538_S4x65536_0_0 : S4x65538.Slices ![0, 0] S4x65536
  slices_S4x3_S4x1_0_1 : S4x3.Slices ![0, 1] S4x1
  slices_S4x65538_S4x65536_0_1 : S4x65538.Slices ![0, 1] S4x65536
  slices_S4x3_S4x1_0_2 : S4x3.Slices ![0, 2] S4x1
  slices_S4x65538_S4x65536_0_2 : S4x65538.Slices ![0, 2] S4x65536
  reducesTo_S4x65536_S4_d1 : S4x65536.ReducesTo [1] S4
  bcast_S4x65536_S4x65536x1_0_1 : S4x65536.BroadcastsInDim S4x65536x1 (![0, 1] : Fin 2 → Fin S4x65536x1.rank)
  bcast_S4x65536x1_S4x65536x256_0_1_2 : S4x65536x1.BroadcastsInDim S4x65536x256 (![0, 1, 2] : Fin 3 → Fin S4x65536x256.rank)
  bcast_S4x1x256_S4x65536x256_0_1_2 : S4x1x256.BroadcastsInDim S4x65536x256 (![0, 1, 2] : Fin 3 → Fin S4x65536x256.rank)
  bcast_S_S4x65536x256 : S_.BroadcastsInDim S4x65536x256 (![] : Fin 0 → Fin S4x65536x256.rank)
  gather_S4x65536x256_S16x1_S4x16x256_02_1_n_n_1_1_41256_wf : GatherDims.WF S4x65536x256 S16x1 S4x16x256 [0, 2] [1] [] [1] [] 1 ![4, 1, 256]
  gather_S4x16_S65536x1_S4x65536_0_1_n_n_1_1_41_wf : GatherDims.WF S4x16 S65536x1 S4x65536 [0] [1] [] [1] [] 1 ![4, 1]

variable [Facts₀]

def gather_S4x65536x256_S16x1_S4x16x256_02_1_n_n_1_1_41256 : GatherDims S4x65536x256 S16x1 S4x16x256 where
  offsetDims := [0, 2]
  collapsedSliceDims := [1]
  operandBatchingDims := []
  startIndicesBatchingDims := []
  startIndexMap := [1]
  indexVectorDim := 1
  sliceSizes := ![4, 1, 256]
  wf := gather_S4x65536x256_S16x1_S4x16x256_02_1_n_n_1_1_41256_wf
def gather_S4x16_S65536x1_S4x65536_0_1_n_n_1_1_41 : GatherDims S4x16 S65536x1 S4x65536 where
  offsetDims := [0]
  collapsedSliceDims := [1]
  operandBatchingDims := []
  startIndicesBatchingDims := []
  startIndexMap := [1]
  indexVectorDim := 1
  sliceSizes := ![4, 1]
  wf := gather_S4x16_S65536x1_S4x65536_0_1_n_n_1_1_41_wf

class Facts : Prop extends Facts₀ where

variable [Facts]
-- ==== Proof.WriteFrameBits.lean ====
/-
  The memory write of one addressing step, run on the device: the launch of the one kernel after the
  host operations that compute the write weighting.

  The program first computes, on the host, a weighting w[b, n] (cosine similarity against sixteen
  representative rows, a gather by cluster id, interpolation with the previous weighting, a circular
  three-tap shift, sharpening and normalisation), lays it out as a column [4, 65536, 1] and the erase and
  add vectors as rows [4, 1, 256], and then launches one kernel over a grid of 4 x 32 points.  At the
  point (b, j) the kernel is handed rows 2048 j ... 2048 j + 2047 of batch b of the memory, the same
  rows of the weighting column, and batch b's erase and add rows; it stores
      mem * (1 - w * e) + w * a
  over the whole block of the result, which the pipeline writes back to rows 2048 j ... of batch b.

  This module states what every buffer of the device holds when the kernel is launched (`atEntry`: the
  fold of the host operations over the launch memory; no host operation writes an argument, so each
  argument is found as launched), what the kernel's body leaves in the result's staging buffer from
  the four input blocks (`written`), the body's Hoare triple, the pipeline's proof data, and from
  them the run of the whole program: every weakly fair execution terminates without a fault, the
  result array ends at what the write-backs assemble, and every other buffer is as it was at the
  kernel's launch.  All of it holds at any interpretation `F` of the floats.
-/
import proofs.«173984_j51049981280452_1_alg».proof.Proof.Gen.Kernel.Launch
import proofs.«173984_j51049981280452_1_alg».proof.Proof.Gen.Kernel.Skeleton
import proofs.«173984_j51049981280452_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- What core `c`'s buffers hold when the kernel is launched: the host operations, stretch after stretch
    (the two gathers, the two norms and the lines of @main between them), folded over the launch memory. -/
abbrev atEntry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_det : (hostOps0 : List (HloOp τ sig (Elt F))).Forall fun op => op.fresh = ∅ := by
  simp only [List.Forall]; repeat' constructor
theorem hostOps0_1_det : (hostOps0_1 : List (HloOp τ sig (Elt F))).Forall fun op => op.fresh = ∅ := by
  simp only [List.Forall]; repeat' constructor
theorem hostOps0_2_det : (hostOps0_2 : List (HloOp τ sig (Elt F))).Forall fun op => op.fresh = ∅ := by
  simp only [List.Forall]; repeat' constructor
theorem hostOps0_3_det : (hostOps0_3 : List (HloOp τ sig (Elt F))).Forall fun op => op.fresh = ∅ := by
  simp only [List.Forall]; repeat' constructor
theorem hostOps0_4_det : (hostOps0_4 : List (HloOp τ sig (Elt F))).Forall fun op => op.fresh = ∅ := by
  simp only [List.Forall]; repeat' constructor
theorem hostOps0_5_det : (hostOps0_5 : List (HloOp τ sig (Elt F))).Forall fun op => op.fresh = ∅ := by
  simp only [List.Forall]; repeat' constructor
theorem hostOps0_6_det : (hostOps0_6 : List (HloOp τ sig (Elt F))).Forall fun op => op.fresh = ∅ := by
  simp only [List.Forall]; repeat' constructor
theorem hostOps0_7_det : (hostOps0_7 : List (HloOp τ sig (Elt F))).Forall fun op => op.fresh = ∅ := by
  simp only [List.Forall]; repeat' constructor

/-- @main is those stretches and then the launch: holding the buffers at the launch memory it reduces to
    the launch holding them at `atEntry`. -/
theorem entry_main (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2, hostOps0_3, hostOps0_4, hostOps0_5, hostOps0_6, hostOps0_7]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_det, hostOps0_1_det, hostOps0_2_det, hostOps0_3_det, hostOps0_4_det, hostOps0_5_det, hostOps0_6_det, hostOps0_7_det⟩) main_chain

/-! Every host operation writes a buffer of its own, never an argument: the kernel is launched with each
    argument as the program was. -/

theorem kept_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg2 (c : Dev nD) : atEntry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg3 (c : Dev nD) : atEntry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg4 (c : Dev nD) : atEntry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg5 (c : Dev nD) : atEntry m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg6 (c : Dev nD) : atEntry m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg7 (c : Dev nD) : atEntry m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg8 (c : Dev nD) : atEntry m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg9 (c : Dev nD) : atEntry m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg10 (c : Dev nD) : atEntry m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The blocks the kernel is handed -/

/-- Window `w`'s block at grid point `t`, read off its array as it is at the launch. -/
def blockIn (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the pipeline fetched it
    there or left the previous point's copy (the erase and add rows move only with the batch): for any proof
    data whose arrays are `atEntry`'s and whose body leaves the inputs' blocks in place. -/

theorem staged_in0 {c : Dev nD} (dat : Dat τ (Elt F) Unit ℕ (UR sig nD τ) ℕ cfg0 c) (hA : dat.A 0 = atEntry m c (Pipeline.arrRef spec0 0))
    (hafter : ∀ t, dat.after 0 t = blockIn m c 0 t) (t : Fin cfg0.N) (d) : dat.before 0 t d = blockIn m c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

theorem staged_in1 {c : Dev nD} (dat : Dat τ (Elt F) Unit ℕ (UR sig nD τ) ℕ cfg0 c) (hA : dat.A 1 = atEntry m c (Pipeline.arrRef spec0 1))
    (hafter : ∀ t, dat.after 1 t = blockIn m c 1 t) (t : Fin cfg0.N) (d) : dat.before 1 t d = blockIn m c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

theorem staged_in2 {c : Dev nD} (dat : Dat τ (Elt F) Unit ℕ (UR sig nD τ) ℕ cfg0 c) (hA : dat.A 2 = atEntry m c (Pipeline.arrRef spec0 2))
    (hafter : ∀ t, dat.after 2 t = blockIn m c 2 t) (t : Fin cfg0.N) (d) : dat.before 2 t d = blockIn m c 2 t :=
  (dat.before_in_eq_fetched 2 rfl (fun _ => rfl) (fun _ _ _ => rfl) (fun t => by rw [hafter]; unfold Dat.blockOf blockIn; rw [hA]; try rfl) t d).trans
    (by unfold Dat.fetched Dat.blockOf blockIn; rw [hA]; try rfl)

theorem staged_in3 {c : Dev nD} (dat : Dat τ (Elt F) Unit ℕ (UR sig nD τ) ℕ cfg0 c) (hA : dat.A 3 = atEntry m c (Pipeline.arrRef spec0 3))
    (hafter : ∀ t, dat.after 3 t = blockIn m c 3 t) (t : Fin cfg0.N) (d) : dat.before 3 t d = blockIn m c 3 t :=
  (dat.before_in_eq_fetched 3 rfl (fun _ => rfl) (fun _ _ _ => rfl) (fun t => by rw [hafter]; unfold Dat.blockOf blockIn; rw [hA]; try rfl) t d).trans
    (by unfold Dat.fetched Dat.blockOf blockIn; rw [hA]; try rfl)

/-! ## What the body stores -/

/-- The whole of a [1, 2048, 256] block, of the weighting's [1, 2048, 1] column and of a [1, 1, 256] row. -/
abbrev boxMem : Rect S1x2048x256 := Rect.unit (s := S1x2048x256) ![0, 0, 0] S1x2048x256.size inb_S1x2048x256_S1x2048x256_0_0_0
abbrev boxCol : Rect S1x2048x1 := Rect.unit (s := S1x2048x1) ![0, 0, 0] S1x2048x1.size inb_S1x2048x1_S1x2048x1_0_0_0
abbrev boxRow : Rect S1x1x256 := Rect.unit (s := S1x1x256) ![0, 0, 0] S1x1x256.size inb_S1x1x256_S1x1x256_0_0_0

/-- The result's staging buffer after the body, from the four input blocks: its one store, of
    `mem * (1 - w * e) + w * a` (the skeleton's payload), over the whole buffer. -/
def written (x0 : Vec F S1x2048x256 .f32) (x1 : Vec F S1x2048x1 .f32) (x2 : Vec F S1x1x256 .f32) (x3 : Vec F S1x1x256 .f32) : Vec F S1x2048x256 .f32 :=
  View.canon [⟨boxMem, k0_pay1 (View.ld x0 boxMem) (View.ld x1 boxCol) (View.ld x2 boxRow) (View.ld x3 boxRow)⟩]

/-- The one store covers the buffer. -/
theorem written_covers (p0 : Vec F S1x2048x256 .f32) (y : S1x2048x256.Idx) :
    ∃ pc ∈ ([⟨boxMem, p0⟩] : List (View.Piece (Elt F) S1x2048x256 .f32)), y ∈ pc.1.set :=
  View.cover_of_tiled [⟨boxMem, p0⟩] S1x2048x256.size (by rfl) y

/-! ## The body's triple -/

set_option maxHeartbeats 1000000 in
/-- On whole staging buffers, the inputs' at contents `x0 … x3` and the result's at anything, the body runs to its
    continuation with the inputs' as they were and the result's at `written` of them (the body also loads the
    result's buffer before the store and uses nothing of what it read). -/
theorem body_triple (c : Dev nD) (E : Set ℕ) (i : grid0.Coords)
    (arg2 : Memref sig .tc .vmem S1x2048x256 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x256 .f32) (harg6 : arg6.IsWhole)
    (x0 : Vec F S1x2048x256 .f32) (x1 : Vec F S1x2048x1 .f32) (x2 : Vec F S1x1x256 .f32) (x3 : Vec F S1x1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (written x0 x1 x2 x3)) -∗ K ⟨⟩))
      ⊢ wp frame (wpE (defs₀ (F := F)) Variants.none c none) E (cc0__write_kernel i arg2 harg2 arg3 harg3 arg4 harg4 arg5 harg5 arg6 harg6) K := by
  simp only [cc0__write_kernel_eq_skeleton]; unfold cc0__write_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (written_covers _)

/-! ## The pipeline's proof data -/

/-- The arrays as the launch finds them; after the body at point `t` each input's buffer at its block and the
    result's at `written` of the four blocks; the invariant the scoped rest and the generator register, untouched;
    nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockIn m c 0 t
    | ⟨1, _⟩ => blockIn m c 1 t
    | ⟨2, _⟩ => blockIn m c 2 t
    | ⟨3, _⟩ => blockIn m c 3 t
    | ⟨4, _⟩ => written (blockIn m c 0 t) (blockIn m c 1 t) (blockIn m c 2 t) (blockIn m c 3 t)
  Φ _ := Pipeline.ΦA spec0 c
  q _ := fullShare
  owed _ := 0

theorem arrays_eq (c : Dev nD) (w : Fin cfg0.W) : (pdata m 0 c).A w = atEntry m c (Pipeline.arrRef spec0 w) := by
  dsimp only [pdata]

theorem left0 (c : Dev nD) (t : Fin cfg0.N) : (pdata m 0 c).after 0 t = blockIn m c 0 t := by dsimp only [pdata]
theorem left1 (c : Dev nD) (t : Fin cfg0.N) : (pdata m 0 c).after 1 t = blockIn m c 1 t := by dsimp only [pdata]
theorem left2 (c : Dev nD) (t : Fin cfg0.N) : (pdata m 0 c).after 2 t = blockIn m c 2 t := by dsimp only [pdata]
theorem left3 (c : Dev nD) (t : Fin cfg0.N) : (pdata m 0 c).after 3 t = blockIn m c 3 t := by dsimp only [pdata]
theorem left4 (c : Dev nD) (t : Fin cfg0.N) :
    (pdata m 0 c).after 4 t = written (blockIn m c 0 t) (blockIn m c 1 t) (blockIn m c 2 t) (blockIn m c 3 t) := by dsimp only [pdata]

theorem found0 (c : Dev nD) (t : Fin cfg0.N) (d) : (pdata m 0 c).before 0 t d = blockIn m c 0 t :=
  staged_in0 m (pdata m 0 c) (arrays_eq m c 0) (left0 m c) t d
theorem found1 (c : Dev nD) (t : Fin cfg0.N) (d) : (pdata m 0 c).before 1 t d = blockIn m c 1 t :=
  staged_in1 m (pdata m 0 c) (arrays_eq m c 1) (left1 m c) t d
theorem found2 (c : Dev nD) (t : Fin cfg0.N) (d) : (pdata m 0 c).before 2 t d = blockIn m c 2 t :=
  staged_in2 m (pdata m 0 c) (arrays_eq m c 2) (left2 m c) t d
theorem found3 (c : Dev nD) (t : Fin cfg0.N) (d) : (pdata m 0 c).before 3 t d = blockIn m c 3 t :=
  staged_in3 m (pdata m 0 c) (arrays_eq m c 3) (left3 m c) t d

/-! ## The body obligation at a grid point -/

/-- What the pipeline calls the body with at point `t`, window by window, -/
def atCall (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what the body hands back. -/
def atReturn (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [found0, found1, found2, found3]
  rw [show (pdata m 0 c).Φ t.succ = (pdata m 0 c).Φ t.castSucc from rfl,
    show (pdata m 0 c).owesAt () t.succ = (pdata m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockIn m c 0 t) (blockIn m c 1 t) (blockIn m c 2 t) (blockIn m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault; at the
    end every array of the pipeline holds what the library assembles from the proof data (an input its contents
    at the launch, the result the blocks written back) and every other unscoped buffer what it held at the launch. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := entry_main m Variants.none) (hA := arrays_eq m) (hΦ := fun _ _ => rfl)

/-- In a final state of that run the arguments are what they were at the start: the memory is window 0's array,
    which the pipeline only reads, and the ten others bypass the kernel; each is at the launch what it was at the start. -/
theorem args_of_post (r : PUnit × MemSt nD τ sig (Elt F)) (h : Pipeline.FramePost cfgs (pdata m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨((h c).1 0).trans (((pdata m 0 c).arrAt_in 0 rfl _).trans ((arrays_eq m c 0).trans (kept_arg0 m c))),
    ((h c).2 main_arg1 (Pipeline.mem_restRefs_of main_arg1 (by decide) (by decide))).trans (kept_arg1 m c),
    ((h c).2 main_arg2 (Pipeline.mem_restRefs_of main_arg2 (by decide) (by decide))).trans (kept_arg2 m c),
    ((h c).2 main_arg3 (Pipeline.mem_restRefs_of main_arg3 (by decide) (by decide))).trans (kept_arg3 m c),
    ((h c).2 main_arg4 (Pipeline.mem_restRefs_of main_arg4 (by decide) (by decide))).trans (kept_arg4 m c),
    ((h c).2 main_arg5 (Pipeline.mem_restRefs_of main_arg5 (by decide) (by decide))).trans (kept_arg5 m c),
    ((h c).2 main_arg6 (Pipeline.mem_restRefs_of main_arg6 (by decide) (by decide))).trans (kept_arg6 m c),
    ((h c).2 main_arg7 (Pipeline.mem_restRefs_of main_arg7 (by decide) (by decide))).trans (kept_arg7 m c),
    ((h c).2 main_arg8 (Pipeline.mem_restRefs_of main_arg8 (by decide) (by decide))).trans (kept_arg8 m c),
    ((h c).2 main_arg9 (Pipeline.mem_restRefs_of main_arg9 (by decide) (by decide))).trans (kept_arg9 m c),
    ((h c).2 main_arg10 (Pipeline.mem_restRefs_of main_arg10 (by decide) (by decide))).trans (kept_arg10 m c)⟩

/-- The arguments end unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_of_post m r h c) (run_main m ρ)

end Cert.Kernel.Frm

end
-- ==== Proof.WriteFrameIdeal.lean ====
/-
  The memory write of one addressing step, run on the device: the launch of the one kernel after the
  host operations that compute the write weighting.

  The program first computes, on the host, a weighting w[b, n] (cosine similarity against sixteen
  representative rows, a gather by cluster id, interpolation with the previous weighting, a circular
  three-tap shift, sharpening and normalisation), lays it out as a column [4, 65536, 1] and the erase and
  add vectors as rows [4, 1, 256], and then launches one kernel over a grid of 4 x 32 points.  At the
  point (b, j) the kernel is handed rows 2048 j ... 2048 j + 2047 of batch b of the memory, the same
  rows of the weighting column, and batch b's erase and add rows; it stores
      mem * (1 - w * e) + w * a
  over the whole block of the result, which the pipeline writes back to rows 2048 j ... of batch b.

  This module states what every buffer of the device holds when the kernel is launched (`atEntry`: the
  fold of the host operations over the launch memory; no host operation writes an argument, so each
  argument is found as launched), what the kernel's body leaves in the result's staging buffer from
  the four input blocks (`written`), the body's Hoare triple, the pipeline's proof data, and from
  them the run of the whole program: every weakly fair execution terminates without a fault, the
  result array ends at what the write-backs assemble, and every other buffer is as it was at the
  kernel's launch.  All of it holds at any interpretation `F` of the floats.
-/
import proofs.«173984_j51049981280452_1_alg».proof.Proof.Gen.KernelIdeal.Launch
import proofs.«173984_j51049981280452_1_alg».proof.Proof.Gen.KernelIdeal.Skeleton
import proofs.«173984_j51049981280452_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- What core `c`'s buffers hold when the kernel is launched: the host operations, stretch after stretch
    (the two gathers, the two norms and the lines of @main between them), folded over the launch memory. -/
abbrev atEntry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_det : (hostOps0 : List (HloOp τ sig (Elt F))).Forall fun op => op.fresh = ∅ := by
  simp only [List.Forall]; repeat' constructor
theorem hostOps0_1_det : (hostOps0_1 : List (HloOp τ sig (Elt F))).Forall fun op => op.fresh = ∅ := by
  simp only [List.Forall]; repeat' constructor
theorem hostOps0_2_det : (hostOps0_2 : List (HloOp τ sig (Elt F))).Forall fun op => op.fresh = ∅ := by
  simp only [List.Forall]; repeat' constructor
theorem hostOps0_3_det : (hostOps0_3 : List (HloOp τ sig (Elt F))).Forall fun op => op.fresh = ∅ := by
  simp only [List.Forall]; repeat' constructor
theorem hostOps0_4_det : (hostOps0_4 : List (HloOp τ sig (Elt F))).Forall fun op => op.fresh = ∅ := by
  simp only [List.Forall]; repeat' constructor
theorem hostOps0_5_det : (hostOps0_5 : List (HloOp τ sig (Elt F))).Forall fun op => op.fresh = ∅ := by
  simp only [List.Forall]; repeat' constructor
theorem hostOps0_6_det : (hostOps0_6 : List (HloOp τ sig (Elt F))).Forall fun op => op.fresh = ∅ := by
  simp only [List.Forall]; repeat' constructor
theorem hostOps0_7_det : (hostOps0_7 : List (HloOp τ sig (Elt F))).Forall fun op => op.fresh = ∅ := by
  simp only [List.Forall]; repeat' constructor

/-- @main is those stretches and then the launch: holding the buffers at the launch memory it reduces to
    the launch holding them at `atEntry`. -/
theorem entry_main (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2, hostOps0_3, hostOps0_4, hostOps0_5, hostOps0_6, hostOps0_7]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_det, hostOps0_1_det, hostOps0_2_det, hostOps0_3_det, hostOps0_4_det, hostOps0_5_det, hostOps0_6_det, hostOps0_7_det⟩) main_chain

/-! Every host operation writes a buffer of its own, never an argument: the kernel is launched with each
    argument as the program was. -/

theorem kept_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg2 (c : Dev nD) : atEntry m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg3 (c : Dev nD) : atEntry m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg4 (c : Dev nD) : atEntry m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg5 (c : Dev nD) : atEntry m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg6 (c : Dev nD) : atEntry m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg7 (c : Dev nD) : atEntry m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg8 (c : Dev nD) : atEntry m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg9 (c : Dev nD) : atEntry m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

theorem kept_arg10 (c : Dev nD) : atEntry m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The blocks the kernel is handed -/

/-- Window `w`'s block at grid point `t`, read off its array as it is at the launch. -/
def blockIn (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the pipeline fetched it
    there or left the previous point's copy (the erase and add rows move only with the batch): for any proof
    data whose arrays are `atEntry`'s and whose body leaves the inputs' blocks in place. -/

theorem staged_in0 {c : Dev nD} (dat : Dat τ (Elt F) Unit ℕ (UR sig nD τ) ℕ cfg0 c) (hA : dat.A 0 = atEntry m c (Pipeline.arrRef spec0 0))
    (hafter : ∀ t, dat.after 0 t = blockIn m c 0 t) (t : Fin cfg0.N) (d) : dat.before 0 t d = blockIn m c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

theorem staged_in1 {c : Dev nD} (dat : Dat τ (Elt F) Unit ℕ (UR sig nD τ) ℕ cfg0 c) (hA : dat.A 1 = atEntry m c (Pipeline.arrRef spec0 1))
    (hafter : ∀ t, dat.after 1 t = blockIn m c 1 t) (t : Fin cfg0.N) (d) : dat.before 1 t d = blockIn m c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

theorem staged_in2 {c : Dev nD} (dat : Dat τ (Elt F) Unit ℕ (UR sig nD τ) ℕ cfg0 c) (hA : dat.A 2 = atEntry m c (Pipeline.arrRef spec0 2))
    (hafter : ∀ t, dat.after 2 t = blockIn m c 2 t) (t : Fin cfg0.N) (d) : dat.before 2 t d = blockIn m c 2 t :=
  (dat.before_in_eq_fetched 2 rfl (fun _ => rfl) (fun _ _ _ => rfl) (fun t => by rw [hafter]; unfold Dat.blockOf blockIn; rw [hA]; try rfl) t d).trans
    (by unfold Dat.fetched Dat.blockOf blockIn; rw [hA]; try rfl)

theorem staged_in3 {c : Dev nD} (dat : Dat τ (Elt F) Unit ℕ (UR sig nD τ) ℕ cfg0 c) (hA : dat.A 3 = atEntry m c (Pipeline.arrRef spec0 3))
    (hafter : ∀ t, dat.after 3 t = blockIn m c 3 t) (t : Fin cfg0.N) (d) : dat.before 3 t d = blockIn m c 3 t :=
  (dat.before_in_eq_fetched 3 rfl (fun _ => rfl) (fun _ _ _ => rfl) (fun t => by rw [hafter]; unfold Dat.blockOf blockIn; rw [hA]; try rfl) t d).trans
    (by unfold Dat.fetched Dat.blockOf blockIn; rw [hA]; try rfl)

/-! ## What the body stores -/

/-- The whole of a [1, 2048, 256] block, of the weighting's [1, 2048, 1] column and of a [1, 1, 256] row. -/
abbrev boxMem : Rect S1x2048x256 := Rect.unit (s := S1x2048x256) ![0, 0, 0] S1x2048x256.size inb_S1x2048x256_S1x2048x256_0_0_0
abbrev boxCol : Rect S1x2048x1 := Rect.unit (s := S1x2048x1) ![0, 0, 0] S1x2048x1.size inb_S1x2048x1_S1x2048x1_0_0_0
abbrev boxRow : Rect S1x1x256 := Rect.unit (s := S1x1x256) ![0, 0, 0] S1x1x256.size inb_S1x1x256_S1x1x256_0_0_0

/-- The result's staging buffer after the body, from the four input blocks: its one store, of
    `mem * (1 - w * e) + w * a` (the skeleton's payload), over the whole buffer. -/
def written (x0 : Vec F S1x2048x256 .f32) (x1 : Vec F S1x2048x1 .f32) (x2 : Vec F S1x1x256 .f32) (x3 : Vec F S1x1x256 .f32) : Vec F S1x2048x256 .f32 :=
  View.canon [⟨boxMem, k0_pay1 (View.ld x0 boxMem) (View.ld x1 boxCol) (View.ld x2 boxRow) (View.ld x3 boxRow)⟩]

/-- The one store covers the buffer. -/
theorem written_covers (p0 : Vec F S1x2048x256 .f32) (y : S1x2048x256.Idx) :
    ∃ pc ∈ ([⟨boxMem, p0⟩] : List (View.Piece (Elt F) S1x2048x256 .f32)), y ∈ pc.1.set :=
  View.cover_of_tiled [⟨boxMem, p0⟩] S1x2048x256.size (by rfl) y

/-! ## The body's triple -/

set_option maxHeartbeats 1000000 in
/-- On whole staging buffers, the inputs' at contents `x0 … x3` and the result's at anything, the body runs to its
    continuation with the inputs' as they were and the result's at `written` of them (the body also loads the
    result's buffer before the store and uses nothing of what it read). -/
theorem body_triple (c : Dev nD) (E : Set ℕ) (i : grid0.Coords)
    (arg2 : Memref sig .tc .vmem S1x2048x256 .f32) (harg2 : arg2.IsWhole) (arg3 : Memref sig .tc .vmem S1x2048x1 .f32) (harg3 : arg3.IsWhole)
    (arg4 : Memref sig .tc .vmem S1x1x256 .f32) (harg4 : arg4.IsWhole) (arg5 : Memref sig .tc .vmem S1x1x256 .f32) (harg5 : arg5.IsWhole)
    (arg6 : Memref sig .tc .vmem S1x2048x256 .f32) (harg6 : arg6.IsWhole)
    (x0 : Vec F S1x2048x256 .f32) (x1 : Vec F S1x2048x1 .f32) (x2 : Vec F S1x1x256 .f32) (x3 : Vec F S1x1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (written x0 x1 x2 x3)) -∗ K ⟨⟩))
      ⊢ wp frame (wpE (defs₀ (F := F)) Variants.none c none) E (cc0__write_kernel i arg2 harg2 arg3 harg3 arg4 harg4 arg5 harg5 arg6 harg6) K := by
  simp only [cc0__write_kernel_eq_skeleton]; unfold cc0__write_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (written_covers _)

/-! ## The pipeline's proof data -/

/-- The arrays as the launch finds them; after the body at point `t` each input's buffer at its block and the
    result's at `written` of the four blocks; the invariant the scoped rest and the generator register, untouched;
    nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockIn m c 0 t
    | ⟨1, _⟩ => blockIn m c 1 t
    | ⟨2, _⟩ => blockIn m c 2 t
    | ⟨3, _⟩ => blockIn m c 3 t
    | ⟨4, _⟩ => written (blockIn m c 0 t) (blockIn m c 1 t) (blockIn m c 2 t) (blockIn m c 3 t)
  Φ _ := Pipeline.ΦA spec0 c
  q _ := fullShare
  owed _ := 0

theorem arrays_eq (c : Dev nD) (w : Fin cfg0.W) : (pdata m 0 c).A w = atEntry m c (Pipeline.arrRef spec0 w) := by
  dsimp only [pdata]

theorem left0 (c : Dev nD) (t : Fin cfg0.N) : (pdata m 0 c).after 0 t = blockIn m c 0 t := by dsimp only [pdata]
theorem left1 (c : Dev nD) (t : Fin cfg0.N) : (pdata m 0 c).after 1 t = blockIn m c 1 t := by dsimp only [pdata]
theorem left2 (c : Dev nD) (t : Fin cfg0.N) : (pdata m 0 c).after 2 t = blockIn m c 2 t := by dsimp only [pdata]
theorem left3 (c : Dev nD) (t : Fin cfg0.N) : (pdata m 0 c).after 3 t = blockIn m c 3 t := by dsimp only [pdata]
theorem left4 (c : Dev nD) (t : Fin cfg0.N) :
    (pdata m 0 c).after 4 t = written (blockIn m c 0 t) (blockIn m c 1 t) (blockIn m c 2 t) (blockIn m c 3 t) := by dsimp only [pdata]

theorem found0 (c : Dev nD) (t : Fin cfg0.N) (d) : (pdata m 0 c).before 0 t d = blockIn m c 0 t :=
  staged_in0 m (pdata m 0 c) (arrays_eq m c 0) (left0 m c) t d
theorem found1 (c : Dev nD) (t : Fin cfg0.N) (d) : (pdata m 0 c).before 1 t d = blockIn m c 1 t :=
  staged_in1 m (pdata m 0 c) (arrays_eq m c 1) (left1 m c) t d
theorem found2 (c : Dev nD) (t : Fin cfg0.N) (d) : (pdata m 0 c).before 2 t d = blockIn m c 2 t :=
  staged_in2 m (pdata m 0 c) (arrays_eq m c 2) (left2 m c) t d
theorem found3 (c : Dev nD) (t : Fin cfg0.N) (d) : (pdata m 0 c).before 3 t d = blockIn m c 3 t :=
  staged_in3 m (pdata m 0 c) (arrays_eq m c 3) (left3 m c) t d

/-! ## The body obligation at a grid point -/

/-- What the pipeline calls the body with at point `t`, window by window, -/
def atCall (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what the body hands back. -/
def atReturn (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [found0, found1, found2, found3]
  rw [show (pdata m 0 c).Φ t.succ = (pdata m 0 c).Φ t.castSucc from rfl,
    show (pdata m 0 c).owesAt () t.succ = (pdata m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockIn m c 0 t) (blockIn m c 1 t) (blockIn m c 2 t) (blockIn m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault; at the
    end every array of the pipeline holds what the library assembles from the proof data (an input its contents
    at the launch, the result the blocks written back) and every other unscoped buffer what it held at the launch. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := entry_main m Variants.none) (hA := arrays_eq m) (hΦ := fun _ _ => rfl)

/-- In a final state of that run the arguments are what they were at the start: the memory is window 0's array,
    which the pipeline only reads, and the ten others bypass the kernel; each is at the launch what it was at the start. -/
theorem args_of_post (r : PUnit × MemSt nD τ sig (Elt F)) (h : Pipeline.FramePost cfgs (pdata m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨((h c).1 0).trans (((pdata m 0 c).arrAt_in 0 rfl _).trans ((arrays_eq m c 0).trans (kept_arg0 m c))),
    ((h c).2 main_arg1 (Pipeline.mem_restRefs_of main_arg1 (by decide) (by decide))).trans (kept_arg1 m c),
    ((h c).2 main_arg2 (Pipeline.mem_restRefs_of main_arg2 (by decide) (by decide))).trans (kept_arg2 m c),
    ((h c).2 main_arg3 (Pipeline.mem_restRefs_of main_arg3 (by decide) (by decide))).trans (kept_arg3 m c),
    ((h c).2 main_arg4 (Pipeline.mem_restRefs_of main_arg4 (by decide) (by decide))).trans (kept_arg4 m c),
    ((h c).2 main_arg5 (Pipeline.mem_restRefs_of main_arg5 (by decide) (by decide))).trans (kept_arg5 m c),
    ((h c).2 main_arg6 (Pipeline.mem_restRefs_of main_arg6 (by decide) (by decide))).trans (kept_arg6 m c),
    ((h c).2 main_arg7 (Pipeline.mem_restRefs_of main_arg7 (by decide) (by decide))).trans (kept_arg7 m c),
    ((h c).2 main_arg8 (Pipeline.mem_restRefs_of main_arg8 (by decide) (by decide))).trans (kept_arg8 m c),
    ((h c).2 main_arg9 (Pipeline.mem_restRefs_of main_arg9 (by decide) (by decide))).trans (kept_arg9 m c),
    ((h c).2 main_arg10 (Pipeline.mem_restRefs_of main_arg10 (by decide) (by decide))).trans (kept_arg10 m c)⟩

/-- The arguments end unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_of_post m r h c) (run_main m ρ)

end Cert.KernelIdeal.Frm

end
-- ==== Proof.LibHostLine.lean ====
/-
  Straight lines of host operations, stretch by stretch.

  A host program is a sequence of operations, each of which writes one buffer with a function of the
  buffers it reads.  When the program is given as several stretches (the lines of the main function and
  the bodies of the functions it calls, in order) its run is the run of the stretches joined end to end,
  and the contents of the buffers afterwards are the fold of all the operations over the contents
  before.  This file has the three list facts that let one treat the stretches as one line, and a name for
  the concatenation of three arrays as a function of the three.
-/
import Idealize.ShloMosaic.Lib.StableHlo.Run
import Idealize.ShloMosaic.Lib.Pipeline.Regions

noncomputable section

namespace Idealize.ShloMosaic.HostLine

open Idealize.ShloMosaic Idealize.ShloMosaic.StableHlo Idealize.SL.Sem

variable {nD : Nat} {τ : Topo} {sig : RefSig} {Val : EltTy → Type} {Λ : Labels}

/-- Running the stretches one after the other and returning is running their concatenation. -/
theorem chain_map_seq (ls : List (List (HloOp τ sig Val))) :
    (Pipeline.chain (ls.map fun l => (seq l : Prog (TpuEff nD τ sig Val Λ .tc) PUnit)) : Prog (TpuEff nD τ sig Val Λ .tc) PUnit)
      = seq ls.flatten := by
  induction ls with
  | nil => rfl
  | cons l ls ih =>
    rw [List.map_cons, Pipeline.chain_cons, ih, List.flatten_cons, seq_append]

/-- A property of every operation of every stretch is a property of every operation of the whole line. -/
theorem forall_flatten {α : Type} {p : α → Prop} (ls : List (List α)) (h : ls.Forall fun l => l.Forall p) :
    ls.flatten.Forall p := by
  rw [List.forall_iff_forall_mem]
  intro x hx
  obtain ⟨l, hl, hxl⟩ := List.mem_flatten.mp hx
  exact List.forall_iff_forall_mem.mp (List.forall_iff_forall_mem.mp h l hl) x hxl

/-- The contents after two lines run in turn: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Three arrays joined along an axis, as a function of the three arrays: a concatenation whose operands are
    ordinary arguments, so that each can be rewritten where it stands. -/
def join3 {α : Type} (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

end Idealize.ShloMosaic.HostLine

end
-- ==== Proof.RefHost.lean ====
/-
  The reference, run: a host program and nothing else.

  The reference computes the same write weighting as the kernel's program, by the same operations in the
  same order, and then the memory update `mem * (1 - w * e) + w * a` by broadcasting the weighting and the
  erase and add vectors to the memory's shape.  Its main function is a straight line of 137 operations once
  the six functions it calls are put in at their calls; this module lists them stretch by stretch, shows the
  printed main function is that line, and concludes that every weakly fair execution terminates with each
  buffer at the fold of the operations over the launch memory.  No operation writes an argument, so the
  arguments end as they were.
-/
import proofs.«173984_j51049981280452_1_alg».proof.Proof.Gen.ReferenceIdeal
import proofs.«173984_j51049981280452_1_alg».proof.Proof.LibHostLine

set_option maxRecDepth 16384

noncomputable section

namespace Cert.ReferenceIdeal.Host

open Cert.ReferenceIdeal Cert.ReferenceIdeal.Gen
open Idealize.ShloMosaic Idealize.ShloMosaic.TcCoe Idealize.SL.Sem Idealize.ShloMosaic.HostLine

variable {F : FTy → Type} [FloatOps F]

/-! ## The operations, stretch by stretch -/

/-- The gather of the sixteen representative rows of the memory (out-of-range indices wrapped, then filled with NaN): 23 operations. -/
abbrev takeRows : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16, .i32⟩) (broadcastInDim S16 ![] bcast_S_S16),
    StableHlo.TRef.binary (.of main_arg10 : StableHlo.TRef sig ⟨S16, .i32⟩) (.of main_call0_v0 : StableHlo.TRef sig ⟨S16, .i32⟩) (.of main_call0_v1 : StableHlo.TRef sig ⟨S16, .i1⟩) (cmpi .slt),
    StableHlo.TRef.nullary (.of main_call0_c_0 : StableHlo.TRef sig ⟨S_, .i32⟩) (constantI S_ 32 65536#32),
    StableHlo.TRef.unary (.of main_call0_c_0 : StableHlo.TRef sig ⟨S_, .i32⟩) (.of main_call0_v2 : StableHlo.TRef sig ⟨S16, .i32⟩) (broadcastInDim S16 ![] bcast_S_S16),
    StableHlo.TRef.binary (.of main_arg10 : StableHlo.TRef sig ⟨S16, .i32⟩) (.of main_call0_v2 : StableHlo.TRef sig ⟨S16, .i32⟩) (.of main_call0_v3 : StableHlo.TRef sig ⟨S16, .i32⟩) addi,
    StableHlo.TRef.ternary (.of main_call0_v1 : StableHlo.TRef sig ⟨S16, .i1⟩) (.of main_call0_v3 : StableHlo.TRef sig ⟨S16, .i32⟩) (.of main_arg10 : StableHlo.TRef sig ⟨S16, .i32⟩) (.of main_call0_v4 : StableHlo.TRef sig ⟨S16, .i32⟩) select,
    StableHlo.TRef.unary main_call0_call0.v0 (.of main_call0_v5 : StableHlo.TRef sig ⟨S16x1, .i32⟩) (broadcastInDim S16x1 ![0] bcast_S16_S16x1_0),
    StableHlo.TRef.nullary (.of main_call0_c_1 : StableHlo.TRef sig ⟨S1, .i32⟩) (constantI S1 32 65535#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16x1, .i32⟩) (broadcastInDim S16x1 ![] bcast_S_S16x1),
    StableHlo.TRef.binary (.of main_call0_v5 : StableHlo.TRef sig ⟨S16x1, .i32⟩) (.of main_call0_v6 : StableHlo.TRef sig ⟨S16x1, .i32⟩) (.of main_call0_v7 : StableHlo.TRef sig ⟨S16x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S16x1, .i32⟩) (broadcastInDim S16x1 ![0, 1] bcast_S1x1_S16x1_0_1),
    StableHlo.TRef.binary (.of main_call0_v5 : StableHlo.TRef sig ⟨S16x1, .i32⟩) (.of main_call0_v9 : StableHlo.TRef sig ⟨S16x1, .i32⟩) (.of main_call0_v10 : StableHlo.TRef sig ⟨S16x1, .i1⟩) (cmpi .sle),
    StableHlo.TRef.binary (.of main_call0_v7 : StableHlo.TRef sig ⟨S16x1, .i1⟩) (.of main_call0_v10 : StableHlo.TRef sig ⟨S16x1, .i1⟩) (.of main_call0_v11 : StableHlo.TRef sig ⟨S16x1, .i1⟩) andi,
    StableHlo.TRef.nullary (.of main_call0_c_3 : StableHlo.TRef sig ⟨S_, .i1⟩) (constantI S_ 1 1#1),
    StableHlo.TRef.binary (.of main_call0_v11 : StableHlo.TRef sig ⟨S16x1, .i1⟩) (.of main_call0_c_3 : StableHlo.TRef sig ⟨S_, .i1⟩) (.of main_call0_v12 : StableHlo.TRef sig ⟨S16, .i1⟩) (fun x v => Host.reduce IntOp.andi x v reducesTo_S16x1_S16_d1 h_S_),
    StableHlo.TRef.binary (.of main_arg0 : StableHlo.TRef sig ⟨S4x65536x256, .f32⟩) (.of main_call0_v5 : StableHlo.TRef sig ⟨S16x1, .i32⟩) (.of main_call0_v13 : StableHlo.TRef sig ⟨S4x16x256, .f32⟩) (fun x i => Host.gather gather_S4x65536x256_S16x1_S4x16x256_02_1_n_n_1_1_41256 x i),
    StableHlo.TRef.unary (.of main_call0_v12 : StableHlo.TRef sig ⟨S16, .i1⟩) (.of main_call0_v14 : StableHlo.TRef sig ⟨S4x16x256, .i1⟩) (broadcastInDim S4x16x256 ![1] bcast_S16_S4x16x256_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S4x16x256, .f32⟩) (broadcastInDim S4x16x256 ![] bcast_S_S4x16x256),
    StableHlo.TRef.ternary (.of main_call0_v14 : StableHlo.TRef sig ⟨S4x16x256, .i1⟩) (.of main_call0_v13 : StableHlo.TRef sig ⟨S4x16x256, .f32⟩) (.of main_call0_v15 : StableHlo.TRef sig ⟨S4x16x256, .f32⟩) (.of main_v0 : StableHlo.TRef sig ⟨S4x16x256, .f32⟩) select ]
theorem takeRows_sub : (takeRows : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem takeRows_det : (takeRows : List (HloOp τ sig (Elt F))).Forall fun op => op.fresh = ∅ := by
  simp only [List.Forall]; repeat' constructor

/-- The inner products of the shifted rows with the shifted key, and the shifted rows again for the norm: 14 operations. -/
abbrev dotLine : List (HloOp τ sig (Elt F)) :=
  [ StableHlo.nullary main_cst (constant S_ .f32 0x24E69595#32),
    StableHlo.unary main_cst main_v1 (broadcastInDim S4x16x256 ![] bcast_S_S4x16x256 : (⟨S_, .f32⟩ : BufTy).Contents (Elt F) → (⟨S4x16x256, .f32⟩ : BufTy).Contents (Elt F)),
    StableHlo.binary main_v0 main_v1 main_v2 (addf : (⟨S4x16x256, .f32⟩ : BufTy).Contents (Elt F) → (⟨S4x16x256, .f32⟩ : BufTy).Contents (Elt F) → (⟨S4x16x256, .f32⟩ : BufTy).Contents (Elt F)),
    StableHlo.unary main_arg1 main_v3 (broadcastInDim S4x1x256 ![0, 2] bcast_S4x256_S4x1x256_0_2 : (⟨S4x256, .f32⟩ : BufTy).Contents (Elt F) → (⟨S4x1x256, .f32⟩ : BufTy).Contents (Elt F)),
    StableHlo.nullary main_cst_0 (constant S_ .f32 0x24E69595#32),
    StableHlo.unary main_cst_0 main_v4 (broadcastInDim S4x1x256 ![] bcast_S_S4x1x256 : (⟨S_, .f32⟩ : BufTy).Contents (Elt F) → (⟨S4x1x256, .f32⟩ : BufTy).Contents (Elt F)),
    StableHlo.binary main_v3 main_v4 main_v5 (addf : (⟨S4x1x256, .f32⟩ : BufTy).Contents (Elt F) → (⟨S4x1x256, .f32⟩ : BufTy).Contents (Elt F) → (⟨S4x1x256, .f32⟩ : BufTy).Contents (Elt F)),
    StableHlo.unary main_v5 main_v6 (broadcastInDim S4x16x256 ![0, 1, 2] bcast_S4x1x256_S4x16x256_0_1_2 : (⟨S4x1x256, .f32⟩ : BufTy).Contents (Elt F) → (⟨S4x16x256, .f32⟩ : BufTy).Contents (Elt F)),
    StableHlo.binary main_v2 main_v6 main_v7 (mulf : (⟨S4x16x256, .f32⟩ : BufTy).Contents (Elt F) → (⟨S4x16x256, .f32⟩ : BufTy).Contents (Elt F) → (⟨S4x16x256, .f32⟩ : BufTy).Contents (Elt F)),
    StableHlo.nullary main_cst_1 (constant S_ .f32 0x00000000#32),
    StableHlo.binary main_v7 main_cst_1 main_v8 ((fun x v => Host.reduceAdd x v reducesTo_S4x16x256_S4x16_d2 h_S_) : (⟨S4x16x256, .f32⟩ : BufTy).Contents (Elt F) → (⟨S_, .f32⟩ : BufTy).Contents (Elt F) → (⟨S4x16, .f32⟩ : BufTy).Contents (Elt F)),
    StableHlo.nullary main_cst_2 (constant S_ .f32 0x24E69595#32),
    StableHlo.unary main_cst_2 main_v9 (broadcastInDim S4x16x256 ![] bcast_S_S4x16x256 : (⟨S_, .f32⟩ : BufTy).Contents (Elt F) → (⟨S4x16x256, .f32⟩ : BufTy).Contents (Elt F)),
    StableHlo.binary main_v0 main_v9 main_v10 (addf : (⟨S4x16x256, .f32⟩ : BufTy).Contents (Elt F) → (⟨S4x16x256, .f32⟩ : BufTy).Contents (Elt F) → (⟨S4x16x256, .f32⟩ : BufTy).Contents (Elt F)) ]
theorem dotLine_sub : (dotLine : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub ..⟩
theorem dotLine_det : (dotLine : List (HloOp τ sig (Elt F))).Forall fun op => op.fresh = ∅ := by
  simp only [List.Forall]; repeat' constructor

/-- The rows' norms: 4 operations. -/
abbrev rowNorms : List (HloOp τ sig (Elt F)) :=
  [ StableHlo.TRef.binary (.of main_v10 : StableHlo.TRef sig ⟨S4x16x256, .f32⟩) (.of main_v10 : StableHlo.TRef sig ⟨S4x16x256, .f32⟩) (.of main_call1_v0 : StableHlo.TRef sig ⟨S4x16x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4x16x256, .f32⟩) (.of main_call1_cst : StableHlo.TRef sig ⟨S_, .f32⟩) (.of main_call1_v1 : StableHlo.TRef sig ⟨S4x16, .f32⟩) (fun x v => Host.reduceAdd x v reducesTo_S4x16x256_S4x16_d2 h_S_),
    StableHlo.TRef.unary (.of main_call1_v1 : StableHlo.TRef sig ⟨S4x16, .f32⟩) (.of main_v11 : StableHlo.TRef sig ⟨S4x16, .f32⟩) Host.sqrt ]
theorem rowNorms_sub : (rowNorms : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩
theorem rowNorms_det : (rowNorms : List (HloOp τ sig (Elt F))).Forall fun op => op.fresh = ∅ := by
  simp only [List.Forall]; repeat' constructor

/-- The shifted key: 3 operations. -/
abbrev keyShift : List (HloOp τ sig (Elt F)) :=
  [ StableHlo.nullary main_cst_3 (constant S_ .f32 0x24E69595#32),
    StableHlo.unary main_cst_3 main_v12 (broadcastInDim S4x256 ![] bcast_S_S4x256 : (⟨S_, .f32⟩ : BufTy).Contents (Elt F) → (⟨S4x256, .f32⟩ : BufTy).Contents (Elt F)),
    StableHlo.binary main_arg1 main_v12 main_v13 (addf : (⟨S4x256, .f32⟩ : BufTy).Contents (Elt F) → (⟨S4x256, .f32⟩ : BufTy).Contents (Elt F) → (⟨S4x256, .f32⟩ : BufTy).Contents (Elt F)) ]
theorem keyShift_sub : (keyShift : List (HloOp τ sig (Elt F))).Forall fun op => op.bufs ⊆ StableHlo.tcRefs τ sig :=
  ⟨StableHlo.nullary_bufs_sub .., StableHlo.unary_bufs_sub .., StableHlo.binary_bufs_sub ..⟩
theorem keyShift_det : (keyShift : List (HloOp τ sig (Elt F))).Forall fun op => op.fresh = ∅ := by
  simp only [List.Forall]; repeat' constructor

/-- The key's norm: 5 operations. -/
abbrev keyNorm : List (HloOp τ sig (Elt F)) :=
  [ StableHlo.TRef.binary (.of main_v13 : StableHlo.TRef sig ⟨S4x256, .f32⟩) (.of main_v13 : StableHlo.TRef sig ⟨S4x256, .f32⟩) (.of main_call2_v0 : StableHlo.TRef sig ⟨S4x256, .f32⟩) mulf,
    StableHlo.TRef.nullary (.of main_call2_cst : StableHlo.TRef sig ⟨S_, .f32⟩) (constant S_ .f32 0x00000000#32),
    StableHlo.TRef.binary (.of main_call2_v0 : StableHlo.TRef sig ⟨S4x256, .f32⟩) (.of main_call2_cst : StableHlo.TRef sig ⟨S_, .f32⟩) (.of main_call2_v1 : StableHlo.TRef sig ⟨S4, .f32⟩) (fun x v => Host.reduceAdd x v reducesTo_S4x256_S4_d1 h_S_),
    StableHlo.TRef.unary (.of main_call2_v1 : StableHlo.TRef sig ⟨S4, .f32⟩) (.of main_call2_v2 : StableHlo.TRef sig ⟨S4x1, .f32⟩) (broadcastInDim S4x1 ![0] bcast_S4_S4x1_0),
    StableHlo.TRef.unary (.of main_call2_v2 : StableHlo.TRef sig ⟨S4x1, .f32⟩) (.of main_v14 : StableHlo.TRef sig ⟨S4x1, .f32⟩) Host.sqrt ]
theorem keyNorm_sub : (keyNorm : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
theorem keyNorm_det : (keyNorm : List (HloOp τ sig (Elt F))).Forall fun op => op.fresh = ∅ := by
  simp only [List.Forall]; repeat' constructor

/-- The scaled, clamped cosine of each representative row: 14 operations. -/
abbrev cosLine : List (HloOp τ sig (Elt F)) :=
  [ StableHlo.unary main_v14 main_v15 (broadcastInDim S4x16 ![0, 1] bcast_S4x1_S4x16_0_1 : (⟨S4x1, .f32⟩ : BufTy).Contents (Elt F) → (⟨S4x16, .f32⟩ : BufTy).Contents (Elt F)),
    StableHlo.binary main_v11 main_v15 main_v16 (mulf : (⟨S4x16, .f32⟩ : BufTy).Contents (Elt F) → (⟨S4x16, .f32⟩ : BufTy).Contents (Elt F) → (⟨S4x16, .f32⟩ : BufTy).Contents (Elt F)),
    StableHlo.nullary main_cst_4 (constant S_ .f32 0x322BCC77#32),
    StableHlo.unary main_cst_4 main_v17 (broadcastInDim S4x16 ![] bcast_S_S4x16 : (⟨S_, .f32⟩ : BufTy).Contents (Elt F) → (⟨S4x16, .f32⟩ : BufTy).Contents (Elt F)),
    StableHlo.binary main_v16 main_v17 main_v18 (maximumf : (⟨S4x16, .f32⟩ : BufTy).Contents (Elt F) → (⟨S4x16, .f32⟩ : BufTy).Contents (Elt F) → (⟨S4x16, .f32⟩ : BufTy).Contents (Elt F)),
    StableHlo.binary main_v8 main_v18 main_v19 (Host.divf : (⟨S4x16, .f32⟩ : BufTy).Contents (Elt F) → (⟨S4x16, .f32⟩ : BufTy).Contents (Elt F) → (⟨S4x16, .f32⟩ : BufTy).Contents (Elt F)),
    StableHlo.nullary main_cst_5 (constant S_ .f32 0x00000000#32),
    StableHlo.unary main_cst_5 main_v20 (broadcastInDim S4x16 ![] bcast_S_S4x16 : (⟨S_, .f32⟩ : BufTy).Contents (Elt F) → (⟨S4x16, .f32⟩ : BufTy).Contents (Elt F)),
    StableHlo.binary main_v19 main_v20 main_v21 (maximumf : (⟨S4x16, .f32⟩ : BufTy).Contents (Elt F) → (⟨S4x16, .f32⟩ : BufTy).Contents (Elt F) → (⟨S4x16, .f32⟩ : BufTy).Contents (Elt F)),
    StableHlo.unary main_arg2 main_v22 (broadcastInDim S4x16 ![0, 1] bcast_S4x1_S4x16_0_1 : (⟨S4x1, .f32⟩ : BufTy).Contents (Elt F) → (⟨S4x16, .f32⟩ : BufTy).Contents (Elt F)),
    StableHlo.binary main_v22 main_v21 main_v23 (mulf : (⟨S4x16, .f32⟩ : BufTy).Contents (Elt F) → (⟨S4x16, .f32⟩ : BufTy).Contents (Elt F) → (⟨S4x16, .f32⟩ : BufTy).Contents (Elt F)),
    StableHlo.nullary main_cst_6 (constant S_ .f32 0x24E69595#32),
    StableHlo.unary main_cst_6 main_v24 (broadcastInDim S4x16 ![] bcast_S_S4x16 : (⟨S_, .f32⟩ : BufTy).Contents (Elt F) → (⟨S4x16, .f32⟩ : BufTy).Contents (Elt F)),
    StableHlo.binary main_v23 main_v24 main_v25 (addf : (⟨S4x16, .f32⟩ : BufTy).Contents (Elt F) → (⟨S4x16, .f32⟩ : BufTy).Contents (Elt F) → (⟨S4x16, .f32⟩ : BufTy).Contents (Elt F)) ]
theorem cosLine_sub : (cosLine : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩
theorem cosLine_det : (cosLine : List (HloOp τ sig (Elt F))).Forall fun op => op.fresh = ∅ := by
  simp only [List.Forall]; repeat' constructor

/-- The cosine of each row's cluster, gathered by cluster id: 23 operations. -/
abbrev takeCos : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S65536, .i32⟩) (broadcastInDim S65536 ![] bcast_S_S65536),
    StableHlo.TRef.binary (.of main_arg9 : StableHlo.TRef sig ⟨S65536, .i32⟩) (.of main_call3_v0 : StableHlo.TRef sig ⟨S65536, .i32⟩) (.of main_call3_v1 : StableHlo.TRef sig ⟨S65536, .i1⟩) (cmpi .slt),
    StableHlo.TRef.nullary (.of main_call3_c_0 : StableHlo.TRef sig ⟨S_, .i32⟩) (constantI S_ 32 16#32),
    StableHlo.TRef.unary (.of main_call3_c_0 : StableHlo.TRef sig ⟨S_, .i32⟩) (.of main_call3_v2 : StableHlo.TRef sig ⟨S65536, .i32⟩) (broadcastInDim S65536 ![] bcast_S_S65536),
    StableHlo.TRef.binary (.of main_arg9 : StableHlo.TRef sig ⟨S65536, .i32⟩) (.of main_call3_v2 : StableHlo.TRef sig ⟨S65536, .i32⟩) (.of main_call3_v3 : StableHlo.TRef sig ⟨S65536, .i32⟩) addi,
    StableHlo.TRef.ternary (.of main_call3_v1 : StableHlo.TRef sig ⟨S65536, .i1⟩) (.of main_call3_v3 : StableHlo.TRef sig ⟨S65536, .i32⟩) (.of main_arg9 : StableHlo.TRef sig ⟨S65536, .i32⟩) (.of main_call3_v4 : StableHlo.TRef sig ⟨S65536, .i32⟩) select,
    StableHlo.TRef.unary main_call3_call0.v0 (.of main_call3_v5 : StableHlo.TRef sig ⟨S65536x1, .i32⟩) (broadcastInDim S65536x1 ![0] bcast_S65536_S65536x1_0),
    StableHlo.TRef.nullary (.of main_call3_c_1 : StableHlo.TRef sig ⟨S1, .i32⟩) (constantI S1 32 15#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S65536x1, .i32⟩) (broadcastInDim S65536x1 ![] bcast_S_S65536x1),
    StableHlo.TRef.binary (.of main_call3_v5 : StableHlo.TRef sig ⟨S65536x1, .i32⟩) (.of main_call3_v6 : StableHlo.TRef sig ⟨S65536x1, .i32⟩) (.of main_call3_v7 : StableHlo.TRef sig ⟨S65536x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S65536x1, .i32⟩) (broadcastInDim S65536x1 ![0, 1] bcast_S1x1_S65536x1_0_1),
    StableHlo.TRef.binary (.of main_call3_v5 : StableHlo.TRef sig ⟨S65536x1, .i32⟩) (.of main_call3_v9 : StableHlo.TRef sig ⟨S65536x1, .i32⟩) (.of main_call3_v10 : StableHlo.TRef sig ⟨S65536x1, .i1⟩) (cmpi .sle),
    StableHlo.TRef.binary (.of main_call3_v7 : StableHlo.TRef sig ⟨S65536x1, .i1⟩) (.of main_call3_v10 : StableHlo.TRef sig ⟨S65536x1, .i1⟩) (.of main_call3_v11 : StableHlo.TRef sig ⟨S65536x1, .i1⟩) andi,
    StableHlo.TRef.nullary (.of main_call3_c_3 : StableHlo.TRef sig ⟨S_, .i1⟩) (constantI S_ 1 1#1),
    StableHlo.TRef.binary (.of main_call3_v11 : StableHlo.TRef sig ⟨S65536x1, .i1⟩) (.of main_call3_c_3 : StableHlo.TRef sig ⟨S_, .i1⟩) (.of main_call3_v12 : StableHlo.TRef sig ⟨S65536, .i1⟩) (fun x v => Host.reduce IntOp.andi x v reducesTo_S65536x1_S65536_d1 h_S_),
    StableHlo.TRef.binary (.of main_v25 : StableHlo.TRef sig ⟨S4x16, .f32⟩) (.of main_call3_v5 : StableHlo.TRef sig ⟨S65536x1, .i32⟩) (.of main_call3_v13 : StableHlo.TRef sig ⟨S4x65536, .f32⟩) (fun x i => Host.gather gather_S4x16_S65536x1_S4x65536_0_1_n_n_1_1_41 x i),
    StableHlo.TRef.unary (.of main_call3_v12 : StableHlo.TRef sig ⟨S65536, .i1⟩) (.of main_call3_v14 : StableHlo.TRef sig ⟨S4x65536, .i1⟩) (broadcastInDim S4x65536 ![1] bcast_S65536_S4x65536_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S4x65536, .f32⟩) (broadcastInDim S4x65536 ![] bcast_S_S4x65536),
    StableHlo.TRef.ternary (.of main_call3_v14 : StableHlo.TRef sig ⟨S4x65536, .i1⟩) (.of main_call3_v13 : StableHlo.TRef sig ⟨S4x65536, .f32⟩) (.of main_call3_v15 : StableHlo.TRef sig ⟨S4x65536, .f32⟩) (.of main_v26 : StableHlo.TRef sig ⟨S4x65536, .f32⟩) select ]
theorem takeCos_sub : (takeCos : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
theorem takeCos_det : (takeCos : List (HloOp τ sig (Elt F))).Forall fun op => op.fresh = ∅ := by
  simp only [List.Forall]; repeat' constructor

/-- The interpolation with the previous weighting and the circular three-tap shift: 25 operations. -/
abbrev shiftLine : List (HloOp τ sig (Elt F)) :=
  [ StableHlo.unary main_arg3 main_v27 (broadcastInDim S4x65536 ![0, 1] bcast_S4x1_S4x65536_0_1 : (⟨S4x1, .f32⟩ : BufTy).Contents (Elt F) → (⟨S4x65536, .f32⟩ : BufTy).Contents (Elt F)),
    StableHlo.binary main_v27 main_v26 main_v28 (mulf : (⟨S4x65536, .f32⟩ : BufTy).Contents (Elt F) → (⟨S4x65536, .f32⟩ : BufTy).Contents (Elt F) → (⟨S4x65536, .f32⟩ : BufTy).Contents (Elt F)),
    StableHlo.nullary main_cst_7 (constant S_ .f32 0x3F800000#32),
    StableHlo.unary main_cst_7 main_v29 (broadcastInDim S4x1 ![] bcast_S_S4x1 : (⟨S_, .f32⟩ : BufTy).Contents (Elt F) → (⟨S4x1, .f32⟩ : BufTy).Contents (Elt F)),
    StableHlo.binary main_v29 main_arg3 main_v30 (subf : (⟨S4x1, .f32⟩ : BufTy).Contents (Elt F) → (⟨S4x1, .f32⟩ : BufTy).Contents (Elt F) → (⟨S4x1, .f32⟩ : BufTy).Contents (Elt F)),
    StableHlo.unary main_v30 main_v31 (broadcastInDim S4x65536 ![0, 1] bcast_S4x1_S4x65536_0_1 : (⟨S4x1, .f32⟩ : BufTy).Contents (Elt F) → (⟨S4x65536, .f32⟩ : BufTy).Contents (Elt F)),
    StableHlo.binary main_v31 main_arg6 main_v32 (mulf : (⟨S4x65536, .f32⟩ : BufTy).Contents (Elt F) → (⟨S4x65536, .f32⟩ : BufTy).Contents (Elt F) → (⟨S4x65536, .f32⟩ : BufTy).Contents (Elt F)),
    StableHlo.binary main_v28 main_v32 main_v33 (addf : (⟨S4x65536, .f32⟩ : BufTy).Contents (Elt F) → (⟨S4x65536, .f32⟩ : BufTy).Contents (Elt F) → (⟨S4x65536, .f32⟩ : BufTy).Contents (Elt F)),
    StableHlo.unary main_v33 main_v34 ((extractStridedSlice S4x1 ![0, 65535] · slices_S4x65536_S4x1_0_65535) : (⟨S4x65536, .f32⟩ : BufTy).Contents (Elt F) → (⟨S4x1, .f32⟩ : BufTy).Contents (Elt F)),
    StableHlo.unary main_v33 main_v35 ((extractStridedSlice S4x1 ![0, 0] · slices_S4x65536_S4x1_0_0) : (⟨S4x65536, .f32⟩ : BufTy).Contents (Elt F) → (⟨S4x1, .f32⟩ : BufTy).Contents (Elt F)),
    StableHlo.nary ![main_v34, main_v33, main_v35] main_v36 (fun u => concatenate S4x65538 1 [⟨S4x1, u 0⟩, ⟨S4x65536, u 1⟩, ⟨S4x1, u 2⟩] concatenates_S4x1_S4x65536_S4x1_S4x65538_d1),
    StableHlo.unary main_arg4 main_v37 ((extractStridedSlice S4x1 ![0, 0] · slices_S4x3_S4x1_0_0) : (⟨S4x3, .f32⟩ : BufTy).Contents (Elt F) → (⟨S4x1, .f32⟩ : BufTy).Contents (Elt F)),
    StableHlo.unary main_v36 main_v38 ((extractStridedSlice S4x65536 ![0, 0] · slices_S4x65538_S4x65536_0_0) : (⟨S4x65538, .f32⟩ : BufTy).Contents (Elt F) → (⟨S4x65536, .f32⟩ : BufTy).Contents (Elt F)),
    StableHlo.unary main_v37 main_v39 (broadcastInDim S4x65536 ![0, 1] bcast_S4x1_S4x65536_0_1 : (⟨S4x1, .f32⟩ : BufTy).Contents (Elt F) → (⟨S4x65536, .f32⟩ : BufTy).Contents (Elt F)),
    StableHlo.binary main_v39 main_v38 main_v40 (mulf : (⟨S4x65536, .f32⟩ : BufTy).Contents (Elt F) → (⟨S4x65536, .f32⟩ : BufTy).Contents (Elt F) → (⟨S4x65536, .f32⟩ : BufTy).Contents (Elt F)),
    StableHlo.unary main_arg4 main_v41 ((extractStridedSlice S4x1 ![0, 1] · slices_S4x3_S4x1_0_1) : (⟨S4x3, .f32⟩ : BufTy).Contents (Elt F) → (⟨S4x1, .f32⟩ : BufTy).Contents (Elt F)),
    StableHlo.unary main_v36 main_v42 ((extractStridedSlice S4x65536 ![0, 1] · slices_S4x65538_S4x65536_0_1) : (⟨S4x65538, .f32⟩ : BufTy).Contents (Elt F) → (⟨S4x65536, .f32⟩ : BufTy).Contents (Elt F)),
    StableHlo.unary main_v41 main_v43 (broadcastInDim S4x65536 ![0, 1] bcast_S4x1_S4x65536_0_1 : (⟨S4x1, .f32⟩ : BufTy).Contents (Elt F) → (⟨S4x65536, .f32⟩ : BufTy).Contents (Elt F)),
    StableHlo.binary main_v43 main_v42 main_v44 (mulf : (⟨S4x65536, .f32⟩ : BufTy).Contents (Elt F) → (⟨S4x65536, .f32⟩ : BufTy).Contents (Elt F) → (⟨S4x65536, .f32⟩ : BufTy).Contents (Elt F)),
    StableHlo.binary main_v40 main_v44 main_v45 (addf : (⟨S4x65536, .f32⟩ : BufTy).Contents (Elt F) → (⟨S4x65536, .f32⟩ : BufTy).Contents (Elt F) → (⟨S4x65536, .f32⟩ : BufTy).Contents (Elt F)),
    StableHlo.unary main_arg4 main_v46 ((extractStridedSlice S4x1 ![0, 2] · slices_S4x3_S4x1_0_2) : (⟨S4x3, .f32⟩ : BufTy).Contents (Elt F) → (⟨S4x1, .f32⟩ : BufTy).Contents (Elt F)),
    StableHlo.unary main_v36 main_v47 ((extractStridedSlice S4x65536 ![0, 2] · slices_S4x65538_S4x65536_0_2) : (⟨S4x65538, .f32⟩ : BufTy).Contents (Elt F) → (⟨S4x65536, .f32⟩ : BufTy).Contents (Elt F)),
    StableHlo.unary main_v46 main_v48 (broadcastInDim S4x65536 ![0, 1] bcast_S4x1_S4x65536_0_1 : (⟨S4x1, .f32⟩ : BufTy).Contents (Elt F) → (⟨S4x65536, .f32⟩ : BufTy).Contents (Elt F)),
    StableHlo.binary main_v48 main_v47 main_v49 (mulf : (⟨S4x65536, .f32⟩ : BufTy).Contents (Elt F) → (⟨S4x65536, .f32⟩ : BufTy).Contents (Elt F) → (⟨S4x65536, .f32⟩ : BufTy).Contents (Elt F)),
    StableHlo.binary main_v45 main_v49 main_v50 (addf : (⟨S4x65536, .f32⟩ : BufTy).Contents (Elt F) → (⟨S4x65536, .f32⟩ : BufTy).Contents (Elt F) → (⟨S4x65536, .f32⟩ : BufTy).Contents (Elt F)) ]
theorem shiftLine_sub : (shiftLine : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.binary_bufs_sub ..⟩
theorem shiftLine_det : (shiftLine : List (HloOp τ sig (Elt F))).Forall fun op => op.fresh = ∅ := by
  simp only [List.Forall]; repeat' constructor

/-- The power by the sharpening exponent and the normalisation by the row sum: 10 operations, ending in the weighting. -/
abbrev sharpen : List (HloOp τ sig (Elt F)) :=
  [ StableHlo.unary main_arg5 main_v51 (broadcastInDim S4x65536 ![0, 1] bcast_S4x1_S4x65536_0_1 : (⟨S4x1, .f32⟩ : BufTy).Contents (Elt F) → (⟨S4x65536, .f32⟩ : BufTy).Contents (Elt F)),
    StableHlo.binary main_v50 main_v51 main_v52 (Host.powf : (⟨S4x65536, .f32⟩ : BufTy).Contents (Elt F) → (⟨S4x65536, .f32⟩ : BufTy).Contents (Elt F) → (⟨S4x65536, .f32⟩ : BufTy).Contents (Elt F)),
    StableHlo.nullary main_cst_8 (constant S_ .f32 0x00000000#32),
    StableHlo.binary main_v52 main_cst_8 main_v53 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.unary main_v53 main_v54 (broadcastInDim S4x1 ![0] bcast_S4_S4x1_0 : (⟨S4, .f32⟩ : BufTy).Contents (Elt F) → (⟨S4x1, .f32⟩ : BufTy).Contents (Elt F)),
    StableHlo.nullary main_cst_9 (constant S_ .f32 0x24E69595#32),
    StableHlo.unary main_cst_9 main_v55 (broadcastInDim S4x1 ![] bcast_S_S4x1 : (⟨S_, .f32⟩ : BufTy).Contents (Elt F) → (⟨S4x1, .f32⟩ : BufTy).Contents (Elt F)),
    StableHlo.binary main_v54 main_v55 main_v56 (addf : (⟨S4x1, .f32⟩ : BufTy).Contents (Elt F) → (⟨S4x1, .f32⟩ : BufTy).Contents (Elt F) → (⟨S4x1, .f32⟩ : BufTy).Contents (Elt F)),
    StableHlo.unary main_v56 main_v57 (broadcastInDim S4x65536 ![0, 1] bcast_S4x1_S4x65536_0_1 : (⟨S4x1, .f32⟩ : BufTy).Contents (Elt F) → (⟨S4x65536, .f32⟩ : BufTy).Contents (Elt F)),
    StableHlo.binary main_v52 main_v57 main_v58 (Host.divf : (⟨S4x65536, .f32⟩ : BufTy).Contents (Elt F) → (⟨S4x65536, .f32⟩ : BufTy).Contents (Elt F) → (⟨S4x65536, .f32⟩ : BufTy).Contents (Elt F)) ]
theorem sharpen_sub : (sharpen : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩
theorem sharpen_det : (sharpen : List (HloOp τ sig (Elt F))).Forall fun op => op.fresh = ∅ := by
  simp only [List.Forall]; repeat' constructor

/-- The write: the weighting and the erase and add vectors broadcast to the memory's shape, mem * (1 - w * e) + w * a: 15 operations. -/
abbrev writeLine : List (HloOp τ sig (Elt F)) :=
  [ StableHlo.unary main_v58 main_v59 (broadcastInDim S4x65536x1 ![0, 1] bcast_S4x65536_S4x65536x1_0_1 : (⟨S4x65536, .f32⟩ : BufTy).Contents (Elt F) → (⟨S4x65536x1, .f32⟩ : BufTy).Contents (Elt F)),
    StableHlo.unary main_arg7 main_v60 (broadcastInDim S4x1x256 ![0, 2] bcast_S4x256_S4x1x256_0_2 : (⟨S4x256, .f32⟩ : BufTy).Contents (Elt F) → (⟨S4x1x256, .f32⟩ : BufTy).Contents (Elt F)),
    StableHlo.unary main_v59 main_v61 (broadcastInDim S4x65536x256 ![0, 1, 2] bcast_S4x65536x1_S4x65536x256_0_1_2 : (⟨S4x65536x1, .f32⟩ : BufTy).Contents (Elt F) → (⟨S4x65536x256, .f32⟩ : BufTy).Contents (Elt F)),
    StableHlo.unary main_v60 main_v62 (broadcastInDim S4x65536x256 ![0, 1, 2] bcast_S4x1x256_S4x65536x256_0_1_2 : (⟨S4x1x256, .f32⟩ : BufTy).Contents (Elt F) → (⟨S4x65536x256, .f32⟩ : BufTy).Contents (Elt F)),
    StableHlo.binary main_v61 main_v62 main_v63 (mulf : (⟨S4x65536x256, .f32⟩ : BufTy).Contents (Elt F) → (⟨S4x65536x256, .f32⟩ : BufTy).Contents (Elt F) → (⟨S4x65536x256, .f32⟩ : BufTy).Contents (Elt F)),
    StableHlo.unary main_v58 main_v64 (broadcastInDim S4x65536x1 ![0, 1] bcast_S4x65536_S4x65536x1_0_1 : (⟨S4x65536, .f32⟩ : BufTy).Contents (Elt F) → (⟨S4x65536x1, .f32⟩ : BufTy).Contents (Elt F)),
    StableHlo.unary main_arg8 main_v65 (broadcastInDim S4x1x256 ![0, 2] bcast_S4x256_S4x1x256_0_2 : (⟨S4x256, .f32⟩ : BufTy).Contents (Elt F) → (⟨S4x1x256, .f32⟩ : BufTy).Contents (Elt F)),
    StableHlo.unary main_v64 main_v66 (broadcastInDim S4x65536x256 ![0, 1, 2] bcast_S4x65536x1_S4x65536x256_0_1_2 : (⟨S4x65536x1, .f32⟩ : BufTy).Contents (Elt F) → (⟨S4x65536x256, .f32⟩ : BufTy).Contents (Elt F)),
    StableHlo.unary main_v65 main_v67 (broadcastInDim S4x65536x256 ![0, 1, 2] bcast_S4x1x256_S4x65536x256_0_1_2 : (⟨S4x1x256, .f32⟩ : BufTy).Contents (Elt F) → (⟨S4x65536x256, .f32⟩ : BufTy).Contents (Elt F)),
    StableHlo.binary main_v66 main_v67 main_v68 (mulf : (⟨S4x65536x256, .f32⟩ : BufTy).Contents (Elt F) → (⟨S4x65536x256, .f32⟩ : BufTy).Contents (Elt F) → (⟨S4x65536x256, .f32⟩ : BufTy).Contents (Elt F)),
    StableHlo.nullary main_cst_10 (constant S_ .f32 0x3F800000#32),
    StableHlo.unary main_cst_10 main_v69 (broadcastInDim S4x65536x256 ![] bcast_S_S4x65536x256 : (⟨S_, .f32⟩ : BufTy).Contents (Elt F) → (⟨S4x65536x256, .f32⟩ : BufTy).Contents (Elt F)),
    StableHlo.binary main_v69 main_v63 main_v70 (subf : (⟨S4x65536x256, .f32⟩ : BufTy).Contents (Elt F) → (⟨S4x65536x256, .f32⟩ : BufTy).Contents (Elt F) → (⟨S4x65536x256, .f32⟩ : BufTy).Contents (Elt F)),
    StableHlo.binary main_arg0 main_v70 main_v71 (mulf : (⟨S4x65536x256, .f32⟩ : BufTy).Contents (Elt F) → (⟨S4x65536x256, .f32⟩ : BufTy).Contents (Elt F) → (⟨S4x65536x256, .f32⟩ : BufTy).Contents (Elt F)),
    StableHlo.binary main_v71 main_v68 main_v72 (addf : (⟨S4x65536x256, .f32⟩ : BufTy).Contents (Elt F) → (⟨S4x65536x256, .f32⟩ : BufTy).Contents (Elt F) → (⟨S4x65536x256, .f32⟩ : BufTy).Contents (Elt F)) ]
theorem writeLine_sub : (writeLine : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem writeLine_det : (writeLine : List (HloOp τ sig (Elt F))).Forall fun op => op.fresh = ∅ := by
  simp only [List.Forall]; repeat' constructor

/-- The circular padding, read at its result: the last column, the whole array and the first column of what the
    operands' buffers hold, joined along the row. -/
theorem joined_result {F : FTy → Type} [FloatOps F] (hxs hy) (G : Valuation τ sig (Elt F)) :
    (StableHlo.nary ![main_v34, main_v33, main_v35] main_v36 (fun u => concatenate S4x65538 1 [⟨S4x1, u 0⟩, ⟨S4x65536, u 1⟩, ⟨S4x1, u 2⟩] concatenates_S4x1_S4x65536_S4x1_S4x65538_d1) hxs hy).result G (no_index (Proc.devRef .tc main_v36))
      = join3 S4x65538 1 S4x1 S4x65536 S4x1 concatenates_S4x1_S4x65536_S4x1_S4x65538_d1
          (G (Proc.devRef .tc main_v34)) (G (Proc.devRef .tc main_v33)) (G (Proc.devRef .tc main_v35)) :=
  StableHlo.nary_result _ _ _ hxs hy G

/-- All ten stretches, in order. -/
abbrev stretches : List (List (HloOp τ sig (Elt F))) := [takeRows, dotLine, rowNorms, keyShift, keyNorm, cosLine, takeCos, shiftLine, sharpen, writeLine]

/-! ## The printed main function is that line -/

theorem part0_chain (c : Dev nD) : main_part0 (F := F) c = (Pipeline.chainK
  [ StableHlo.seq takeRows,
    StableHlo.seq dotLine,
    StableHlo.seq rowNorms,
    StableHlo.seq keyShift,
    StableHlo.seq keyNorm,
    StableHlo.seq cosLine,
    StableHlo.seq takeCos ]
  (StableHlo.seq shiftLine) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chain
  [ StableHlo.seq sharpen,
    StableHlo.seq writeLine ] : Prog (TpuEff nD τ sig (Elt F) (Pipeline.Sig Λ₀ (Fin 0) fun p => (pcfgs (F := F) p).Adm) .tc) PUnit) := by
  chain_rfl

theorem main_chain (c : Dev nD) : main (F := F) c = (Pipeline.chain
  [ StableHlo.seq takeRows,
    StableHlo.seq dotLine,
    StableHlo.seq rowNorms,
    StableHlo.seq keyShift,
    StableHlo.seq keyNorm,
    StableHlo.seq cosLine,
    StableHlo.seq takeCos,
    StableHlo.seq shiftLine,
    StableHlo.seq sharpen,
    StableHlo.seq writeLine ] : Prog (TpuEff nD τ sig (Elt F) (Pipeline.Sig Λ₀ (Fin 0) fun p => (pcfgs (F := F) p).Adm) .tc) PUnit) := by
  show (main_part0 (F := F) c >>= fun _ => main_part1 (F := F) c) = _
  rewrite [part1_chain, part0_chain, Pipeline.chainK_bind_chain]
  chain_rfl

/-- The main function is the one line of all the operations. -/
theorem main_line (c : Dev nD) : main (F := F) c = StableHlo.seq (List.flatten (stretches (F := F))) :=
  (main_chain c).trans (chain_map_seq (stretches (F := F)))

theorem stretches_sub : (List.flatten (stretches (F := F))).Forall fun op => op.bufs ⊆ StableHlo.tcRefs τ sig :=
  forall_flatten _ (by simp only [stretches, List.Forall]; exact ⟨takeRows_sub, dotLine_sub, rowNorms_sub, keyShift_sub, keyNorm_sub, cosLine_sub, takeCos_sub, shiftLine_sub, sharpen_sub, writeLine_sub⟩)

theorem stretches_det : (List.flatten (stretches (F := F))).Forall fun op => op.fresh = ∅ :=
  forall_flatten _ (by simp only [stretches, List.Forall]; exact ⟨takeRows_det, dotLine_det, rowNorms_det, keyShift_det, keyNorm_det, cosLine_det, takeCos_det, shiftLine_det, sharpen_det, writeLine_det⟩)

theorem scopedRefs_eq : (Finset.univ.filter fun b : Ref sig .tc => b.isScoped) = ∅ := by decide
theorem scopedSems_eq : (Finset.univ.filter fun sm : SemLoc sig => sm.isScoped .tc) = ∅ := by decide

/-! ## The run -/

/-- From any memory with zero counters every weakly fair execution of the reference terminates without a fault,
    each buffer at the fold of the operations over the launch memory. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (List.flatten (stretches (F := F))) (StableHlo.launchContents m c) (Proc.devRef .tc b) :=
  StableHlo.run_seq scopedRefs_eq scopedSems_eq defs main (fun _ => List.flatten stretches) main_line (fun _ => stretches_sub) m ρ
    (hfresh := fun _ op h => List.forall_iff_forall_mem.mp stretches_det op h)

/-! Every operation writes a buffer of its own, never an argument. -/

theorem kept_arg0 (V : Valuation τ sig (Elt F)) :
    StableHlo.after (List.flatten (stretches (F := F))) V (Proc.devRef .tc main_arg0) = V (Proc.devRef .tc main_arg0) :=
  StableHlo.after_of_forall_not_mem (b := Proc.devRef .tc main_arg0) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg1 (V : Valuation τ sig (Elt F)) :
    StableHlo.after (List.flatten (stretches (F := F))) V (Proc.devRef .tc main_arg1) = V (Proc.devRef .tc main_arg1) :=
  StableHlo.after_of_forall_not_mem (b := Proc.devRef .tc main_arg1) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg2 (V : Valuation τ sig (Elt F)) :
    StableHlo.after (List.flatten (stretches (F := F))) V (Proc.devRef .tc main_arg2) = V (Proc.devRef .tc main_arg2) :=
  StableHlo.after_of_forall_not_mem (b := Proc.devRef .tc main_arg2) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg3 (V : Valuation τ sig (Elt F)) :
    StableHlo.after (List.flatten (stretches (F := F))) V (Proc.devRef .tc main_arg3) = V (Proc.devRef .tc main_arg3) :=
  StableHlo.after_of_forall_not_mem (b := Proc.devRef .tc main_arg3) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg4 (V : Valuation τ sig (Elt F)) :
    StableHlo.after (List.flatten (stretches (F := F))) V (Proc.devRef .tc main_arg4) = V (Proc.devRef .tc main_arg4) :=
  StableHlo.after_of_forall_not_mem (b := Proc.devRef .tc main_arg4) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg5 (V : Valuation τ sig (Elt F)) :
    StableHlo.after (List.flatten (stretches (F := F))) V (Proc.devRef .tc main_arg5) = V (Proc.devRef .tc main_arg5) :=
  StableHlo.after_of_forall_not_mem (b := Proc.devRef .tc main_arg5) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg6 (V : Valuation τ sig (Elt F)) :
    StableHlo.after (List.flatten (stretches (F := F))) V (Proc.devRef .tc main_arg6) = V (Proc.devRef .tc main_arg6) :=
  StableHlo.after_of_forall_not_mem (b := Proc.devRef .tc main_arg6) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg7 (V : Valuation τ sig (Elt F)) :
    StableHlo.after (List.flatten (stretches (F := F))) V (Proc.devRef .tc main_arg7) = V (Proc.devRef .tc main_arg7) :=
  StableHlo.after_of_forall_not_mem (b := Proc.devRef .tc main_arg7) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg8 (V : Valuation τ sig (Elt F)) :
    StableHlo.after (List.flatten (stretches (F := F))) V (Proc.devRef .tc main_arg8) = V (Proc.devRef .tc main_arg8) :=
  StableHlo.after_of_forall_not_mem (b := Proc.devRef .tc main_arg8) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg9 (V : Valuation τ sig (Elt F)) :
    StableHlo.after (List.flatten (stretches (F := F))) V (Proc.devRef .tc main_arg9) = V (Proc.devRef .tc main_arg9) :=
  StableHlo.after_of_forall_not_mem (b := Proc.devRef .tc main_arg9) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

theorem kept_arg10 (V : Valuation τ sig (Elt F)) :
    StableHlo.after (List.flatten (stretches (F := F))) V (Proc.devRef .tc main_arg10) = V (Proc.devRef .tc main_arg10) :=
  StableHlo.after_of_forall_not_mem (b := Proc.devRef .tc main_arg10) _ _ (List.forall_iff_forall_mem.mp (by
    simp only [stretches, takeRows, dotLine, rowNorms, keyShift, keyNorm, cosLine, takeCos, shiftLine, sharpen, writeLine, List.flatten_cons, List.flatten_nil, List.append_nil, List.cons_append,
      List.nil_append, List.Forall, StableHlo.nullary_writes, StableHlo.unary_writes, StableHlo.binary_writes, StableHlo.ternary_writes,
      StableHlo.nary_writes, Finset.mem_singleton]
    repeat' apply And.intro
    all_goals exact StableHlo.devRef_ne_of_ne (by decide)))

/-- The arguments end unchanged. -/
theorem args_kept (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩) (run_line m ρ)

end Cert.ReferenceIdeal.Host

end
-- ==== Proof.KernelLine.lean ====
/-
  The device program's host operations, cut where the weighting is complete.

  The last stretch of host operations before the launch first interpolates, shifts, sharpens and normalises
  (35 operations, ending in the weighting w[b, n]) and then lays three arrays out for the kernel: the weighting as
  a column [4, 65536, 1] and the erase and add vectors as rows [4, 1, 256].  Cutting the line there, what the
  kernel is launched with is the three re-laid arrays over whatever the first part computed, and the first part
  is, operation for operation, what the reference computes before its own update.
-/
import proofs.«173984_j51049981280452_1_alg».proof.Proof.WriteFrameIdeal
import proofs.«173984_j51049981280452_1_alg».proof.Proof.LibHostLine

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.HostLine

variable {F : FTy → Type} [FloatOps F]

/-- Interpolation with the previous weighting, the circular three-tap shift, the power by the sharpening
    exponent and the normalisation by the row sum: 35 operations, ending in the weighting. -/
abbrev shiftSharpen : List (HloOp τ sig (Elt F)) :=
  [ StableHlo.unary main_arg3 main_v27 (broadcastInDim S4x65536 ![0, 1] bcast_S4x1_S4x65536_0_1 : (⟨S4x1, .f32⟩ : BufTy).Contents (Elt F) → (⟨S4x65536, .f32⟩ : BufTy).Contents (Elt F)),
    StableHlo.binary main_v27 main_v26 main_v28 (mulf : (⟨S4x65536, .f32⟩ : BufTy).Contents (Elt F) → (⟨S4x65536, .f32⟩ : BufTy).Contents (Elt F) → (⟨S4x65536, .f32⟩ : BufTy).Contents (Elt F)),
    StableHlo.nullary main_cst_7 (constant S_ .f32 0x3F800000#32),
    StableHlo.unary main_cst_7 main_v29 (broadcastInDim S4x1 ![] bcast_S_S4x1 : (⟨S_, .f32⟩ : BufTy).Contents (Elt F) → (⟨S4x1, .f32⟩ : BufTy).Contents (Elt F)),
    StableHlo.binary main_v29 main_arg3 main_v30 (subf : (⟨S4x1, .f32⟩ : BufTy).Contents (Elt F) → (⟨S4x1, .f32⟩ : BufTy).Contents (Elt F) → (⟨S4x1, .f32⟩ : BufTy).Contents (Elt F)),
    StableHlo.unary main_v30 main_v31 (broadcastInDim S4x65536 ![0, 1] bcast_S4x1_S4x65536_0_1 : (⟨S4x1, .f32⟩ : BufTy).Contents (Elt F) → (⟨S4x65536, .f32⟩ : BufTy).Contents (Elt F)),
    StableHlo.binary main_v31 main_arg6 main_v32 (mulf : (⟨S4x65536, .f32⟩ : BufTy).Contents (Elt F) → (⟨S4x65536, .f32⟩ : BufTy).Contents (Elt F) → (⟨S4x65536, .f32⟩ : BufTy).Contents (Elt F)),
    StableHlo.binary main_v28 main_v32 main_v33 (addf : (⟨S4x65536, .f32⟩ : BufTy).Contents (Elt F) → (⟨S4x65536, .f32⟩ : BufTy).Contents (Elt F) → (⟨S4x65536, .f32⟩ : BufTy).Contents (Elt F)),
    StableHlo.unary main_v33 main_v34 ((extractStridedSlice S4x1 ![0, 65535] · slices_S4x65536_S4x1_0_65535) : (⟨S4x65536, .f32⟩ : BufTy).Contents (Elt F) → (⟨S4x1, .f32⟩ : BufTy).Contents (Elt F)),
    StableHlo.unary main_v33 main_v35 ((extractStridedSlice S4x1 ![0, 0] · slices_S4x65536_S4x1_0_0) : (⟨S4x65536, .f32⟩ : BufTy).Contents (Elt F) → (⟨S4x1, .f32⟩ : BufTy).Contents (Elt F)),
    StableHlo.nary ![main_v34, main_v33, main_v35] main_v36 (fun u => concatenate S4x65538 1 [⟨S4x1, u 0⟩, ⟨S4x65536, u 1⟩, ⟨S4x1, u 2⟩] concatenates_S4x1_S4x65536_S4x1_S4x65538_d1),
    StableHlo.unary main_arg4 main_v37 ((extractStridedSlice S4x1 ![0, 0] · slices_S4x3_S4x1_0_0) : (⟨S4x3, .f32⟩ : BufTy).Contents (Elt F) → (⟨S4x1, .f32⟩ : BufTy).Contents (Elt F)),
    StableHlo.unary main_v36 main_v38 ((extractStridedSlice S4x65536 ![0, 0] · slices_S4x65538_S4x65536_0_0) : (⟨S4x65538, .f32⟩ : BufTy).Contents (Elt F) → (⟨S4x65536, .f32⟩ : BufTy).Contents (Elt F)),
    StableHlo.unary main_v37 main_v39 (broadcastInDim S4x65536 ![0, 1] bcast_S4x1_S4x65536_0_1 : (⟨S4x1, .f32⟩ : BufTy).Contents (Elt F) → (⟨S4x65536, .f32⟩ : BufTy).Contents (Elt F)),
    StableHlo.binary main_v39 main_v38 main_v40 (mulf : (⟨S4x65536, .f32⟩ : BufTy).Contents (Elt F) → (⟨S4x65536, .f32⟩ : BufTy).Contents (Elt F) → (⟨S4x65536, .f32⟩ : BufTy).Contents (Elt F)),
    StableHlo.unary main_arg4 main_v41 ((extractStridedSlice S4x1 ![0, 1] · slices_S4x3_S4x1_0_1) : (⟨S4x3, .f32⟩ : BufTy).Contents (Elt F) → (⟨S4x1, .f32⟩ : BufTy).Contents (Elt F)),
    StableHlo.unary main_v36 main_v42 ((extractStridedSlice S4x65536 ![0, 1] · slices_S4x65538_S4x65536_0_1) : (⟨S4x65538, .f32⟩ : BufTy).Contents (Elt F) → (⟨S4x65536, .f32⟩ : BufTy).Contents (Elt F)),
    StableHlo.unary main_v41 main_v43 (broadcastInDim S4x65536 ![0, 1] bcast_S4x1_S4x65536_0_1 : (⟨S4x1, .f32⟩ : BufTy).Contents (Elt F) → (⟨S4x65536, .f32⟩ : BufTy).Contents (Elt F)),
    StableHlo.binary main_v43 main_v42 main_v44 (mulf : (⟨S4x65536, .f32⟩ : BufTy).Contents (Elt F) → (⟨S4x65536, .f32⟩ : BufTy).Contents (Elt F) → (⟨S4x65536, .f32⟩ : BufTy).Contents (Elt F)),
    StableHlo.binary main_v40 main_v44 main_v45 (addf : (⟨S4x65536, .f32⟩ : BufTy).Contents (Elt F) → (⟨S4x65536, .f32⟩ : BufTy).Contents (Elt F) → (⟨S4x65536, .f32⟩ : BufTy).Contents (Elt F)),
    StableHlo.unary main_arg4 main_v46 ((extractStridedSlice S4x1 ![0, 2] · slices_S4x3_S4x1_0_2) : (⟨S4x3, .f32⟩ : BufTy).Contents (Elt F) → (⟨S4x1, .f32⟩ : BufTy).Contents (Elt F)),
    StableHlo.unary main_v36 main_v47 ((extractStridedSlice S4x65536 ![0, 2] · slices_S4x65538_S4x65536_0_2) : (⟨S4x65538, .f32⟩ : BufTy).Contents (Elt F) → (⟨S4x65536, .f32⟩ : BufTy).Contents (Elt F)),
    StableHlo.unary main_v46 main_v48 (broadcastInDim S4x65536 ![0, 1] bcast_S4x1_S4x65536_0_1 : (⟨S4x1, .f32⟩ : BufTy).Contents (Elt F) → (⟨S4x65536, .f32⟩ : BufTy).Contents (Elt F)),
    StableHlo.binary main_v48 main_v47 main_v49 (mulf : (⟨S4x65536, .f32⟩ : BufTy).Contents (Elt F) → (⟨S4x65536, .f32⟩ : BufTy).Contents (Elt F) → (⟨S4x65536, .f32⟩ : BufTy).Contents (Elt F)),
    StableHlo.binary main_v45 main_v49 main_v50 (addf : (⟨S4x65536, .f32⟩ : BufTy).Contents (Elt F) → (⟨S4x65536, .f32⟩ : BufTy).Contents (Elt F) → (⟨S4x65536, .f32⟩ : BufTy).Contents (Elt F)),
    StableHlo.unary main_arg5 main_v51 (broadcastInDim S4x65536 ![0, 1] bcast_S4x1_S4x65536_0_1 : (⟨S4x1, .f32⟩ : BufTy).Contents (Elt F) → (⟨S4x65536, .f32⟩ : BufTy).Contents (Elt F)),
    StableHlo.binary main_v50 main_v51 main_v52 (Host.powf : (⟨S4x65536, .f32⟩ : BufTy).Contents (Elt F) → (⟨S4x65536, .f32⟩ : BufTy).Contents (Elt F) → (⟨S4x65536, .f32⟩ : BufTy).Contents (Elt F)),
    StableHlo.nullary main_cst_8 (constant S_ .f32 0x00000000#32),
    StableHlo.binary main_v52 main_cst_8 main_v53 ((fun x v => Host.reduceAdd x v reducesTo_S4x65536_S4_d1 h_S_) : (⟨S4x65536, .f32⟩ : BufTy).Contents (Elt F) → (⟨S_, .f32⟩ : BufTy).Contents (Elt F) → (⟨S4, .f32⟩ : BufTy).Contents (Elt F)),
    StableHlo.unary main_v53 main_v54 (broadcastInDim S4x1 ![0] bcast_S4_S4x1_0 : (⟨S4, .f32⟩ : BufTy).Contents (Elt F) → (⟨S4x1, .f32⟩ : BufTy).Contents (Elt F)),
    StableHlo.nullary main_cst_9 (constant S_ .f32 0x24E69595#32),
    StableHlo.unary main_cst_9 main_v55 (broadcastInDim S4x1 ![] bcast_S_S4x1 : (⟨S_, .f32⟩ : BufTy).Contents (Elt F) → (⟨S4x1, .f32⟩ : BufTy).Contents (Elt F)),
    StableHlo.binary main_v54 main_v55 main_v56 (addf : (⟨S4x1, .f32⟩ : BufTy).Contents (Elt F) → (⟨S4x1, .f32⟩ : BufTy).Contents (Elt F) → (⟨S4x1, .f32⟩ : BufTy).Contents (Elt F)),
    StableHlo.unary main_v56 main_v57 (broadcastInDim S4x65536 ![0, 1] bcast_S4x1_S4x65536_0_1 : (⟨S4x1, .f32⟩ : BufTy).Contents (Elt F) → (⟨S4x65536, .f32⟩ : BufTy).Contents (Elt F)),
    StableHlo.binary main_v52 main_v57 main_v58 (Host.divf : (⟨S4x65536, .f32⟩ : BufTy).Contents (Elt F) → (⟨S4x65536, .f32⟩ : BufTy).Contents (Elt F) → (⟨S4x65536, .f32⟩ : BufTy).Contents (Elt F)) ]

/-- The weighting re-laid as a column and the erase and add vectors as rows. -/
abbrev relay : List (HloOp τ sig (Elt F)) :=
  [ StableHlo.reshape main_v58 main_v59 rfl shapeCasts_S4x65536_S4x65536x1,
    StableHlo.reshape main_arg7 main_v60 rfl shapeCasts_S4x256_S4x1x256,
    StableHlo.reshape main_arg8 main_v61 rfl shapeCasts_S4x256_S4x1x256 ]

/-- The last stretch is those two, in order. -/
theorem last_stretch : (hostOps0_7 : List (HloOp τ sig (Elt F))) = shiftSharpen ++ relay := rfl

/-- Everything up to the weighting. -/
abbrev lead : List (HloOp τ sig (Elt F)) :=
  List.flatten [hostOps0, hostOps0_1, hostOps0_2, hostOps0_3, hostOps0_4, hostOps0_5, hostOps0_6] ++ shiftSharpen

theorem whole_line :
    List.flatten [hostOps0, hostOps0_1, hostOps0_2, hostOps0_3, hostOps0_4, hostOps0_5, hostOps0_6, (hostOps0_7 : List (HloOp τ sig (Elt F)))] = lead ++ relay := by
  rw [last_stretch]
  simp only [List.flatten_cons, List.flatten_nil, List.append_nil, List.append_assoc]

/-- The circular padding, read at its result: the last column, the whole array and the first column of what the
    operands' buffers hold, joined along the row. -/
theorem joined_result {F : FTy → Type} [FloatOps F] (hxs hy) (G : Valuation τ sig (Elt F)) :
    (StableHlo.nary ![main_v34, main_v33, main_v35] main_v36 (fun u => concatenate S4x65538 1 [⟨S4x1, u 0⟩, ⟨S4x65536, u 1⟩, ⟨S4x1, u 2⟩] concatenates_S4x1_S4x65536_S4x1_S4x65538_d1) hxs hy).result G (no_index (Proc.devRef .tc main_v36))
      = join3 S4x65538 1 S4x1 S4x65536 S4x1 concatenates_S4x1_S4x65536_S4x1_S4x65538_d1
          (G (Proc.devRef .tc main_v34)) (G (Proc.devRef .tc main_v33)) (G (Proc.devRef .tc main_v35)) :=
  StableHlo.nary_result _ _ _ hxs hy G

/-- What the kernel is launched with is the re-laying over what the first part left. -/
theorem atEntry_split (m : (ℓ : Loc nD τ sig) → Buf (Elt F) ℓ) (c : Dev nD) (b : Ref sig .tc) :
    atEntry m c b = StableHlo.after relay (StableHlo.after lead (fun b => m (c, b))) b := by
  show StableHlo.after (List.flatten [hostOps0, hostOps0_1, hostOps0_2, hostOps0_3, hostOps0_4, hostOps0_5, hostOps0_6, hostOps0_7]) (fun b => m (c, b)) b = _
  rw [whole_line, after_append]

end Cert.KernelIdeal.Val

end
-- ==== Proof.WriteSpec.lean ====
/-
  The write of one addressing step, entry by entry.

  Given the memory mem[b, n, k], a write weighting w[b, n], an erase vector e[b, k] and an add vector a[b, k],
  the written memory is
      new[b, n, k] = mem[b, n, k] * (1 - w[b, n] * e[b, k]) + w[b, n] * a[b, k]
  on the extended reals, the 1 being the value of the float word 0x3F800000.  Nothing here depends on a program.
-/
import Idealize.ShloMosaic.PureOps.Ideal
import Idealize.ShloMosaic.Lib.ValueIdx

noncomputable section

namespace Cert.WriteStep

open Idealize.ShloMosaic Idealize.ShloMosaic.ValueIdx

/-- The value of the float word of 1.0 (never evaluated: the same word stands on both sides). -/
def unit : EReal := Ideal.ofBits .f32 0x3F800000#32

/-- One entry's update from its four numbers. -/
def upd (x w e a : EReal) : EReal := x * (unit - w * e) + w * a

/-- The written memory as one function of the memory, the weighting and the erase and add vectors. -/
def written (mem : (⟨3, ![4, 65536, 256]⟩ : Shape).Idx → EReal) (w : (⟨2, ![4, 65536]⟩ : Shape).Idx → EReal)
    (e a : (⟨2, ![4, 256]⟩ : Shape).Idx → EReal) : (⟨3, ![4, 65536, 256]⟩ : Shape).Idx → EReal :=
  fun i => upd (mem i) (w (ix2 (i 0) (i 1))) (e (ix2 (i 0) (i 2))) (a (ix2 (i 0) (i 2)))

theorem written_at (mem : (⟨3, ![4, 65536, 256]⟩ : Shape).Idx → EReal) (w : (⟨2, ![4, 65536]⟩ : Shape).Idx → EReal)
    (e a : (⟨2, ![4, 256]⟩ : Shape).Idx → EReal) (b : Fin 4) (n : Fin 65536) (k : Fin 256) :
    written mem w e a (ix3 b n k) = upd (mem (ix3 b n k)) (w (ix2 b n)) (e (ix2 b k)) (a (ix2 b k)) := rfl

end Cert.WriteStep

end
-- ==== Proof.WriteLayout.lean ====
/-
  The write weighting and the erase and add vectors, laid out to the memory's shape, read at an entry.

  The array code broadcasts the weighting [4, 65536] to [4, 65536, 1] and on to [4, 65536, 256], and a vector
  [4, 256] to [4, 1, 256] and on to [4, 65536, 256]; the device program reshapes them to the column
  [4, 65536, 1] and the row [4, 1, 256] and leaves the repetition to the kernel.  Either way the entry read for
  (b, n, k) is w[b, n], respectively e[b, k].
-/
import Idealize.ShloMosaic.Lib.Pipeline.Value
import Idealize.ShloMosaic.Lib.ValueIdx

noncomputable section

namespace Cert.WriteStep

open Idealize.ShloMosaic Idealize.ShloMosaic.ValueIdx

variable {α : Type}

/-- The weighting repeated along the last axis, at (b, n, k): w[b, n]. -/
theorem spread_col_at (X : (⟨2, ![4, 65536]⟩ : Shape).Idx → α)
    (h1 : (⟨2, ![4, 65536]⟩ : Shape).BroadcastsInDim ⟨3, ![4, 65536, 1]⟩ ![0, 1])
    (h2 : (⟨3, ![4, 65536, 1]⟩ : Shape).BroadcastsInDim ⟨3, ![4, 65536, 256]⟩ ![0, 1, 2])
    (b : Fin 4) (n : Fin 65536) (k : Fin 256) :
    broadcastInDim ⟨3, ![4, 65536, 256]⟩ ![0, 1, 2] h2 (broadcastInDim ⟨3, ![4, 65536, 1]⟩ ![0, 1] h1 X) (ix3 b n k) = X (ix2 b n) :=
  (broadcastInDim_apply ![0, 1, 2] h2 _ (ix3 b n k) (ix3 b n 0) (fun a => by
    match a with
    | ⟨0, _⟩ => rfl
    | ⟨1, _⟩ => rfl
    | ⟨2, _⟩ => rfl)).trans
  (broadcastInDim_apply ![0, 1] h1 X (ix3 b n 0) (ix2 b n) (fun a => by
    match a with
    | ⟨0, _⟩ => rfl
    | ⟨1, _⟩ => rfl))

/-- A vector repeated along the middle axis, at (b, n, k): e[b, k]. -/
theorem spread_row_at (Y : (⟨2, ![4, 256]⟩ : Shape).Idx → α)
    (h1 : (⟨2, ![4, 256]⟩ : Shape).BroadcastsInDim ⟨3, ![4, 1, 256]⟩ ![0, 2])
    (h2 : (⟨3, ![4, 1, 256]⟩ : Shape).BroadcastsInDim ⟨3, ![4, 65536, 256]⟩ ![0, 1, 2])
    (b : Fin 4) (n : Fin 65536) (k : Fin 256) :
    broadcastInDim ⟨3, ![4, 65536, 256]⟩ ![0, 1, 2] h2 (broadcastInDim ⟨3, ![4, 1, 256]⟩ ![0, 2] h1 Y) (ix3 b n k) = Y (ix2 b k) :=
  (broadcastInDim_apply ![0, 1, 2] h2 _ (ix3 b n k) (ix3 b 0 k) (fun a => by
    match a with
    | ⟨0, _⟩ => rfl
    | ⟨1, _⟩ => rfl
    | ⟨2, _⟩ => rfl)).trans
  (broadcastInDim_apply ![0, 2] h1 Y (ix3 b 0 k) (ix2 b k) (fun a => by
    match a with
    | ⟨0, _⟩ => rfl
    | ⟨1, _⟩ => rfl))

/-- A scalar spread over the memory's shape is the scalar at every entry. -/
theorem spread_scalar_at (Z : (⟨0, ![]⟩ : Shape).Idx → α) (h : (⟨0, ![]⟩ : Shape).BroadcastsInDim ⟨3, ![4, 65536, 256]⟩ ![])
    (i : (⟨3, ![4, 65536, 256]⟩ : Shape).Idx) :
    broadcastInDim ⟨3, ![4, 65536, 256]⟩ ![] h Z i = Z ix0 :=
  broadcastInDim_apply ![] h Z i ix0 (fun a => a.elim0)

/-- The weighting reshaped to a column, at (b, n, 0): w[b, n]. -/
theorem column_at (X : (⟨2, ![4, 65536]⟩ : Shape).Idx → α) (h : (⟨2, ![4, 65536]⟩ : Shape).ShapeCasts ⟨3, ![4, 65536, 1]⟩)
    (b : Fin 4) (n : Fin 65536) :
    shapeCast ⟨3, ![4, 65536, 1]⟩ X h (ix3 b n 0) = X (ix2 b n) :=
  shapeCast_apply X h (ix3 b n 0) (ix2 b n) (by
    rw [Shape.rowMajor_val_two, Shape.rowMajor_val_three]
    show b.val * 65536 + n.val = (b.val * 65536 + n.val) * 1 + 0
    omega)

/-- A vector reshaped to a row, at (b, 0, k): e[b, k]. -/
theorem row_at (Y : (⟨2, ![4, 256]⟩ : Shape).Idx → α) (h : (⟨2, ![4, 256]⟩ : Shape).ShapeCasts ⟨3, ![4, 1, 256]⟩)
    (b : Fin 4) (k : Fin 256) :
    shapeCast ⟨3, ![4, 1, 256]⟩ Y h (ix3 b 0 k) = Y (ix2 b k) :=
  shapeCast_apply Y h (ix3 b 0 k) (ix2 b k) (by
    rw [Shape.rowMajor_val_two, Shape.rowMajor_val_three]
    show b.val * 256 + k.val = (b.val * 1 + 0) * 256 + k.val
    omega)

end Cert.WriteStep

end
-- ==== Proof.WriteValue.lean ====
/-
  What the kernel's launch leaves in the result array: the written memory, entry by entry.

  At the grid point whose result block has index (p, q, 0) the body is handed rows 2048 q ... 2048 q + 2047 of batch
  p of the memory and of the weighting's column, and batch p's erase and add rows; at the entry (0, r, k) of its
  block it stores  mem * (1 - w * e) + w * a  of the four numbers found at (0, r, k), (0, r, 0), (0, 0, k), (0, 0, k)
  of those blocks, which are the entries (p, 2048 q + r, k), (p, 2048 q + r), (p, k), (p, k) of the memory, the
  weighting and the two vectors.  So each point writes back its block of one function of the whole arrays, the 128
  blocks tile the result, and the result array ends holding that function.
-/
import proofs.«173984_j51049981280452_1_alg».proof.Proof.KernelLine
import proofs.«173984_j51049981280452_1_alg».proof.Proof.WriteSpec
import proofs.«173984_j51049981280452_1_alg».proof.Proof.WriteLayout
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open Idealize.ShloMosaic.HostLine

/-! ## The body's stored value at an entry of the block -/

theorem zero3 : (![0, 0, 0] : Fin 3 → Nat) = fun _ => 0 := funext fun a => by fin_cases a <;> rfl

/-- A column [1, 2048, 1] repeated along the rows: at (0, r, k) it is the column's entry r. -/
theorem col_at (x : FVec Ideal S1x2048x1 .f32) (h1 : S1x2048x1.ShapeCasts S1x2048x1) (h2 : S1x2048x1.Broadcasts S1x2048x256)
    (r : Fin 2048) (k : Fin 256) :
    broadcastTo S1x2048x256 (shapeCast S1x2048x1 x h1) h2 (ix3 0 r k) = x (ix3 0 r 0) := by
  rw [shapeCast_self]
  exact broadcastTo_apply x h2 (ix3 0 r k) (ix3 0 r 0) (fun a => by
    match a with
    | ⟨0, _⟩ => rfl
    | ⟨1, _⟩ => rfl
    | ⟨2, _⟩ => rfl)

/-- A row [1, 1, 256] repeated down the 2048 rows: at (0, r, k) it is the row's entry k. -/
theorem row_at (x : FVec Ideal S1x1x256 .f32) (h1 : S1x1x256.ShapeCasts S1x1x256) (h2 : S1x1x256.Broadcasts S1x2048x256)
    (r : Fin 2048) (k : Fin 256) :
    broadcastTo S1x2048x256 (shapeCast S1x1x256 x h1) h2 (ix3 0 r k) = x (ix3 0 0 k) := by
  rw [shapeCast_self]
  exact broadcastTo_apply x h2 (ix3 0 r k) (ix3 0 0 k) (fun a => by
    match a with
    | ⟨0, _⟩ => rfl
    | ⟨1, _⟩ => rfl
    | ⟨2, _⟩ => rfl)

/-- The stored value at (0, r, k): the update of the four numbers at (0, r, k), (0, r, 0), (0, 0, k), (0, 0, k). -/
theorem stored_at (x0 : Vec Ideal S1x2048x256 .f32) (x1 : Vec Ideal S1x2048x1 .f32) (x2 x3 : Vec Ideal S1x1x256 .f32)
    (r : Fin 2048) (k : Fin 256) :
    k0_pay1 (F := Ideal) x0 x1 x2 x3 (ix3 0 r k)
      = Cert.WriteStep.upd (x0 (ix3 0 r k)) (x1 (ix3 0 r 0)) (x2 (ix3 0 0 k)) (x3 (ix3 0 0 k)) := by
  have hc := col_at x1 shapeCasts_S1x2048x1_S1x2048x1 broadcasts_S1x2048x1_S1x2048x256 r k
  have he := row_at x2 shapeCasts_S1x1x256_S1x1x256 broadcasts_S1x1x256_S1x2048x256 r k
  have ha := row_at x3 shapeCasts_S1x1x256_S1x1x256 broadcasts_S1x1x256_S1x2048x256 r k
  unfold k0_pay1 Cert.WriteStep.upd Cert.WriteStep.unit
  exact congrArg₂ (· + ·)
    (congrArg (x0 (ix3 0 r k) * ·) (congrArg (Ideal.ofBits .f32 0x3F800000#32 - ·) (congrArg₂ (· * ·) hc he)))
    (congrArg₂ (· * ·) hc ha)

/-! ## The blocks, as pieces of the whole arrays -/

section Blocks

variable (m : (ℓ : Loc nD τ sig) → Buf (Elt Ideal) ℓ) (ρ : Dev nD → PrngReg)

/-- How the five windows' block indices move over the grid, decided over its 128 points: the memory and the
    weighting's column move with the result's block on both axes, the erase and add rows with its batch only. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (1 : Fin 3) ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 3 ∧ win0_4.index t (1 : Fin 3) ≤ 31 ∧ win0_4.index t (2 : Fin 3) = 0 :=
  (by decide +kernel : ∀ t : Fin grid0.N, _)

/-- Every block of the result is some point's. -/
theorem idx_onto : ∀ (q0 : Fin 4) (q1 : Fin 32), ∃ t : Fin cfg0.N, win0_4.index t = ![q0.val, q1.val, 0] :=
  (by decide +kernel : ∀ (q0 : Fin 4) (q1 : Fin 32), ∃ t : Fin grid0.N, win0_4.index t = ![q0.val, q1.val, 0])

/-- What point `t` writes back is its block of the written memory, for any weighting `W` and vectors `E`, `A` that the
    column and the two rows found at the launch are the re-laying of. -/
theorem point_writes (c : Dev nD) (t : Fin cfg0.N) (W : FVec Ideal S4x65536 .f32) (E A : FVec Ideal S4x256 .f32)
    (hW : ∀ (b : Fin 4) (n : Fin 65536), atEntry m c main_v59 (ix3 b n 0) = W (ix2 b n))
    (hE : ∀ (b : Fin 4) (k : Fin 256), atEntry m c main_v60 (ix3 b 0 k) = E (ix2 b k))
    (hA : ∀ (b : Fin 4) (k : Fin 256), atEntry m c main_v61 (ix3 b 0 k) = A (ix2 b k)) :
    (pdata m 0 c).flushed 4 t
      = ((cfg0.win 4).blk t).view.read (Elt Ideal) (Cert.WriteStep.written (atEntry m c main_arg0) W E A) := by
  show (cfg0.win 4).cut (grid0.coords t) ((pdata m 0 c).after 4 t) = _
  rw [left4]
  unfold Frm.written
  rw [View.canon_unit_zero zero3]
  simp only [View.ld_unit_zero (S := S1x2048x256) zero3, View.ld_unit_zero (S := S1x2048x1) zero3, View.ld_unit_zero (S := S1x1x256) zero3]
  obtain ⟨e00, e01, e02, e10, e11, e12, e20, e21, e22, e30, e31, e32, b0, b1, e42⟩ := idx_facts t
  funext j
  obtain ⟨r, k, rfl⟩ : ∃ (r : Fin 2048) (k : Fin 256), j = ix3 0 r k :=
    ⟨j 1, j 2, (eq_ix3 j).trans (congrArg (fun z => ix3 z (j 1) (j 2)) (Subsingleton.elim (α := Fin 1) (j 0) 0))⟩
  show k0_pay1 (F := Ideal) (blockIn m c 0 t) (blockIn m c 1 t) (blockIn m c 2 t) (blockIn m c 3 t) (ix3 0 r k)
      = Cert.WriteStep.written (atEntry m c main_arg0) W E A (((cfg0.win 4).blk t).view.emb (ix3 0 r k))
  refine (stored_at (blockIn m c 0 t) (blockIn m c 1 t) (blockIn m c 2 t) (blockIn m c 3 t) r k).trans ?_
  have hr : r.val < 2048 := r.isLt
  have hk : k.val < 256 := k.isLt
  have hp : win0_4.index t (0 : Fin 3) < 4 := by omega
  have hn : win0_4.index t (1 : Fin 3) * 2048 + r.val < 65536 := by omega
  have i4 : ((cfg0.win 4).blk t).view.emb (ix3 0 r k) = ix3 ⟨win0_4.index t (0 : Fin 3), hp⟩ ⟨win0_4.index t (1 : Fin 3) * 2048 + r.val, hn⟩ k := by
    funext a; apply Fin.ext
    match a with
    | ⟨0, _⟩ => show win0_4.index t (0 : Fin 3) * 1 + 1 * 0 = win0_4.index t (0 : Fin 3); omega
    | ⟨1, _⟩ => show win0_4.index t (1 : Fin 3) * 2048 + 1 * r.val = win0_4.index t (1 : Fin 3) * 2048 + r.val; omega
    | ⟨2, _⟩ => show win0_4.index t (2 : Fin 3) * 256 + 1 * k.val = k.val; omega
  have i0 : ((cfg0.win 0).blk t).view.emb (ix3 0 r k) = ix3 ⟨win0_4.index t (0 : Fin 3), hp⟩ ⟨win0_4.index t (1 : Fin 3) * 2048 + r.val, hn⟩ k := by
    funext a; apply Fin.ext
    match a with
    | ⟨0, _⟩ => show win0_0.index t (0 : Fin 3) * 1 + 1 * 0 = win0_4.index t (0 : Fin 3); omega
    | ⟨1, _⟩ => show win0_0.index t (1 : Fin 3) * 2048 + 1 * r.val = win0_4.index t (1 : Fin 3) * 2048 + r.val; omega
    | ⟨2, _⟩ => show win0_0.index t (2 : Fin 3) * 256 + 1 * k.val = k.val; omega
  have i1 : ((cfg0.win 1).blk t).view.emb (ix3 0 r 0) = ix3 ⟨win0_4.index t (0 : Fin 3), hp⟩ ⟨win0_4.index t (1 : Fin 3) * 2048 + r.val, hn⟩ 0 := by
    funext a; apply Fin.ext
    match a with
    | ⟨0, _⟩ => show win0_1.index t (0 : Fin 3) * 1 + 1 * 0 = win0_4.index t (0 : Fin 3); omega
    | ⟨1, _⟩ => show win0_1.index t (1 : Fin 3) * 2048 + 1 * r.val = win0_4.index t (1 : Fin 3) * 2048 + r.val; omega
    | ⟨2, _⟩ => show win0_1.index t (2 : Fin 3) * 1 + 1 * 0 = 0; omega
  have i2 : ((cfg0.win 2).blk t).view.emb (ix3 0 0 k) = ix3 ⟨win0_4.index t (0 : Fin 3), hp⟩ 0 k := by
    funext a; apply Fin.ext
    match a with
    | ⟨0, _⟩ => show win0_2.index t (0 : Fin 3) * 1 + 1 * 0 = win0_4.index t (0 : Fin 3); omega
    | ⟨1, _⟩ => show win0_2.index t (1 : Fin 3) * 1 + 1 * 0 = 0; omega
    | ⟨2, _⟩ => show win0_2.index t (2 : Fin 3) * 256 + 1 * k.val = k.val; omega
  have i3 : ((cfg0.win 3).blk t).view.emb (ix3 0 0 k) = ix3 ⟨win0_4.index t (0 : Fin 3), hp⟩ 0 k := by
    funext a; apply Fin.ext
    match a with
    | ⟨0, _⟩ => show win0_3.index t (0 : Fin 3) * 1 + 1 * 0 = win0_4.index t (0 : Fin 3); omega
    | ⟨1, _⟩ => show win0_3.index t (1 : Fin 3) * 1 + 1 * 0 = 0; omega
    | ⟨2, _⟩ => show win0_3.index t (2 : Fin 3) * 256 + 1 * k.val = k.val; omega
  show Cert.WriteStep.upd (atEntry m c main_arg0 (((cfg0.win 0).blk t).view.emb (ix3 0 r k)))
      (atEntry m c main_v59 (((cfg0.win 1).blk t).view.emb (ix3 0 r 0)))
      (atEntry m c main_v60 (((cfg0.win 2).blk t).view.emb (ix3 0 0 k)))
      (atEntry m c main_v61 (((cfg0.win 3).blk t).view.emb (ix3 0 0 k))) = _
  rw [i0, i1, i2, i3, i4, hW, hE, hA]
  rfl

/-- An entry of the result is in point `t`'s block iff each coordinate is in the block's range on its axis. -/
theorem in_block (t : Fin cfg0.N) (i : S4x65536x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v62).slice (win0_4.rect t)).set ↔ _
  rw [View.set_slice_whole, Rect.mem_set_unit]
  exact Iff.rfl

/-- The 128 blocks tile the result: the entry (b, n, k) is in the block of batch b and rows 2048 (n / 2048) .... -/
theorem all_covered (i : S4x65536x256.Idx) : ∃ t : Fin cfg0.N, (cfg0.win 4).flush t = true ∧ i ∈ ((cfg0.win 4).blk t).view.set := by
  have hi0 : (i 0).val < 4 := (i 0).isLt
  have hi1 : (i 1).val < 65536 := (i 1).isLt
  have hi2 : (i 2).val < 256 := (i 2).isLt
  obtain ⟨t, ht⟩ := idx_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [in_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- The result array after the launch is the written memory. -/
theorem result_written (c : Dev nD) (W : FVec Ideal S4x65536 .f32) (E A : FVec Ideal S4x256 .f32)
    (hW : ∀ (b : Fin 4) (n : Fin 65536), atEntry m c main_v59 (ix3 b n 0) = W (ix2 b n))
    (hE : ∀ (b : Fin 4) (k : Fin 256), atEntry m c main_v60 (ix3 b 0 k) = E (ix2 b k))
    (hA : ∀ (b : Fin 4) (k : Fin 256), atEntry m c main_v61 (ix3 b 0 k) = A (ix2 b k)) :
    (pdata m 0 c).arrAt 4 cfg0.N = Cert.WriteStep.written (atEntry m c main_arg0) W E A :=
  (pdata m 0 c).arrAt_eq_of_cover 4 _ (fun t _ => point_writes m c t W E A hW hE hA) all_covered

end Blocks

/-! ## The re-laid arrays, read at an entry -/

section Relaid

/-- The column the kernel is handed is the weighting the first part left, re-laid. -/
theorem relaid_col (E : Valuation τ sig (Elt Ideal)) (b : Fin 4) (n : Fin 65536) :
    (StableHlo.after relay E (Proc.devRef .tc main_v59) : FVec Ideal S4x65536x1 .f32) (ix3 b n 0)
      = (E (Proc.devRef .tc main_v58) : FVec Ideal S4x65536 .f32) (ix2 b n) := by
  simp (disch := decide) only [relay, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']
  exact Cert.WriteStep.column_at _ shapeCasts_S4x65536_S4x65536x1 b n

/-- The erase row is the erase vector, re-laid. -/
theorem relaid_erase (E : Valuation τ sig (Elt Ideal)) (b : Fin 4) (k : Fin 256) :
    (StableHlo.after relay E (Proc.devRef .tc main_v60) : FVec Ideal S4x1x256 .f32) (ix3 b 0 k)
      = (E (Proc.devRef .tc main_arg7) : FVec Ideal S4x256 .f32) (ix2 b k) := by
  simp (disch := decide) only [relay, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']
  exact Cert.WriteStep.row_at _ shapeCasts_S4x256_S4x1x256 b k

/-- The add row is the add vector, re-laid. -/
theorem relaid_add (E : Valuation τ sig (Elt Ideal)) (b : Fin 4) (k : Fin 256) :
    (StableHlo.after relay E (Proc.devRef .tc main_v61) : FVec Ideal S4x1x256 .f32) (ix3 b 0 k)
      = (E (Proc.devRef .tc main_arg8) : FVec Ideal S4x256 .f32) (ix2 b k) := by
  simp (disch := decide) only [relay, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']
  exact Cert.WriteStep.row_at _ shapeCasts_S4x256_S4x1x256 b k

/-- The re-laying writes buffers of its own: the erase and add vectors are after it what they were before. -/
theorem relay_keeps (E : Valuation τ sig (Elt Ideal)) (r : Ref sig .tc) (hr : r = main_arg7 ∨ r = main_arg8) :
    StableHlo.after relay E (Proc.devRef .tc r) = E (Proc.devRef .tc r) := by
  rcases hr with rfl | rfl <;>
  simp (disch := decide) only [relay, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']

end Relaid

/-! ## The run, read -/

section Run

variable (m : (ℓ : Loc nD τ sig) → Buf (Elt Ideal) ℓ) (ρ : Dev nD → PrngReg)

/-- The weighting the device program computes on core `c`: what the host operations up to the normalisation leave. -/
def weighting (c : Dev nD) : FVec Ideal S4x65536 .f32 :=
  StableHlo.after (lead (F := Ideal)) (fun b => m (c, b)) (Proc.devRef .tc main_v58)

theorem erase_found (c : Dev nD) :
    StableHlo.after (lead (F := Ideal)) (fun b => m (c, b)) (Proc.devRef .tc main_arg7) = m ((c : Thread nD τ).loc main_arg7) :=
  (relay_keeps _ main_arg7 (.inl rfl)).symm.trans ((atEntry_split m c main_arg7).symm.trans (kept_arg7 m c))

theorem add_found (c : Dev nD) :
    StableHlo.after (lead (F := Ideal)) (fun b => m (c, b)) (Proc.devRef .tc main_arg8) = m ((c : Thread nD τ).loc main_arg8) :=
  (relay_keeps _ main_arg8 (.inr rfl)).symm.trans ((atEntry_split m c main_arg8).symm.trans (kept_arg8 m c))

/-- After the launch the result array is the written memory of the arguments and the weighting. -/
theorem result_eq (c : Dev nD) :
    (pdata m 0 c).arrAt 4 cfg0.N
      = Cert.WriteStep.written (m ((c : Thread nD τ).loc main_arg0)) (weighting m c)
          (m ((c : Thread nD τ).loc main_arg7)) (m ((c : Thread nD τ).loc main_arg8)) := by
  rw [← kept_arg0 m c]
  refine result_written m c (weighting m c) _ _ (fun b n => ?_) (fun b k => ?_) (fun b k => ?_)
  · rw [atEntry_split]; exact relaid_col _ b n
  · rw [atEntry_split, ← erase_found m c]; exact relaid_erase _ b k
  · rw [atEntry_split, ← add_found m c]; exact relaid_add _ b k

/-- The device program's run: it terminates without a fault with the result at the written memory and the arguments
    as they were. -/
theorem run_value : θ_run defs (onTc (τ := τ) (main (F := Ideal))) ⟨m, fun _ => 0, ρ⟩ fun r => ∀ c : Dev nD,
      r.2.mem ((c.tc : Thread nD τ).loc main_v62)
        = Cert.WriteStep.written (m ((c.tc : Thread nD τ).loc main_arg0)) (weighting m c)
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (result_eq m c), args_of_post m r h c⟩) (run_main m ρ)

end Run

end Cert.KernelIdeal.Val

end
-- ==== Proof.RefValue.lean ====
/-
  What the array code returns: the written memory over its own weighting.

  The reference's line is the nine stretches that compute the weighting w[b, n] and then the fifteen operations
  of the update.  Read at the entry (b, n, k), the update is  mem * (1 - w * e) + w * a  of mem[b, n, k], w[b, n],
  e[b, k] and a[b, k]: the broadcasts pick those entries and the arithmetic is entrywise.
-/
import proofs.«173984_j51049981280452_1_alg».proof.Proof.RefHost
import proofs.«173984_j51049981280452_1_alg».proof.Proof.WriteSpec
import proofs.«173984_j51049981280452_1_alg».proof.Proof.WriteLayout

set_option maxRecDepth 16384

noncomputable section

namespace Cert.ReferenceIdeal.Val

open Cert.ReferenceIdeal Cert.ReferenceIdeal.Gen Cert.ReferenceIdeal.Host
open Idealize.ShloMosaic Idealize.ShloMosaic.TcCoe Idealize.SL.Sem Idealize.ShloMosaic.HostLine Idealize.ShloMosaic.ValueIdx

/-- Everything up to the weighting. -/
abbrev lead {F : FTy → Type} [FloatOps F] : List (List (HloOp τ sig (Elt F))) := [takeRows, dotLine, rowNorms, keyShift, keyNorm, cosLine, takeCos, shiftLine, sharpen]

theorem whole_line {F : FTy → Type} [FloatOps F] :
    List.flatten (stretches (F := F)) = List.flatten (lead (F := F)) ++ writeLine := by
  simp only [stretches, lead, List.flatten_cons, List.flatten_nil, List.append_nil, List.append_assoc]

/-- The buffers after the whole line are the update's fifteen operations over what the first part left. -/
theorem after_split {F : FTy → Type} [FloatOps F] (V : Valuation τ sig (Elt F)) (b : Ref sig .tc) :
    StableHlo.after (List.flatten (stretches (F := F))) V (Proc.devRef .tc b)
      = StableHlo.after writeLine (StableHlo.after (List.flatten (lead (F := F))) V) (Proc.devRef .tc b) := by
  rw [whole_line, after_append]

/-- The update's operations write buffers of their own: the memory and the two vectors are after them what they
    were before. -/
theorem write_keeps {F : FTy → Type} [FloatOps F] (E : Valuation τ sig (Elt F)) (r : Ref sig .tc)
    (hr : r = main_arg0 ∨ r = main_arg7 ∨ r = main_arg8) :
    StableHlo.after writeLine E (Proc.devRef .tc r) = E (Proc.devRef .tc r) := by
  rcases hr with rfl | rfl | rfl <;>
  simp (disch := decide) only [writeLine, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']

/-- The update's arithmetic on whole arrays, at the entry (b, n, k). -/
theorem update_fn (M : FVec Ideal S4x65536x256 .f32) (W : FVec Ideal S4x65536 .f32) (Ev Av : FVec Ideal S4x256 .f32)
    (b : Fin 4) (n : Fin 65536) (k : Fin 256) :
    addf (mulf M (subf (broadcastInDim S4x65536x256 ![] bcast_S_S4x65536x256 (constant (F := Ideal) S_ .f32 0x3F800000#32))
        (mulf (broadcastInDim S4x65536x256 ![0, 1, 2] bcast_S4x65536x1_S4x65536x256_0_1_2 (broadcastInDim S4x65536x1 ![0, 1] bcast_S4x65536_S4x65536x1_0_1 W))
          (broadcastInDim S4x65536x256 ![0, 1, 2] bcast_S4x1x256_S4x65536x256_0_1_2 (broadcastInDim S4x1x256 ![0, 2] bcast_S4x256_S4x1x256_0_2 Ev)))))
      (mulf (broadcastInDim S4x65536x256 ![0, 1, 2] bcast_S4x65536x1_S4x65536x256_0_1_2 (broadcastInDim S4x65536x1 ![0, 1] bcast_S4x65536_S4x65536x1_0_1 W))
        (broadcastInDim S4x65536x256 ![0, 1, 2] bcast_S4x1x256_S4x65536x256_0_1_2 (broadcastInDim S4x1x256 ![0, 2] bcast_S4x256_S4x1x256_0_2 Av)))
      (ix3 b n k)
      = Cert.WriteStep.upd (M (ix3 b n k)) (W (ix2 b n)) (Ev (ix2 b k)) (Av (ix2 b k)) := by
  have hw := Cert.WriteStep.spread_col_at W bcast_S4x65536_S4x65536x1_0_1 bcast_S4x65536x1_S4x65536x256_0_1_2 b n k
  have he := Cert.WriteStep.spread_row_at Ev bcast_S4x256_S4x1x256_0_2 bcast_S4x1x256_S4x65536x256_0_1_2 b n k
  have ha := Cert.WriteStep.spread_row_at Av bcast_S4x256_S4x1x256_0_2 bcast_S4x1x256_S4x65536x256_0_1_2 b n k
  have h1 := Cert.WriteStep.spread_scalar_at (constant (F := Ideal) S_ .f32 0x3F800000#32) bcast_S_S4x65536x256 (ix3 b n k)
  unfold Cert.WriteStep.upd Cert.WriteStep.unit
  exact congrArg₂ (· + ·)
    (congrArg (M (ix3 b n k) * ·) (congrArg₂ (· - ·) h1 (congrArg₂ (· * ·) hw he)))
    (congrArg₂ (· * ·) hw ha)

/-- The update at the entry (b, n, k), over whatever the first part left. -/
theorem update_at (E : Valuation τ sig (Elt Ideal)) (b : Fin 4) (n : Fin 65536) (k : Fin 256) :
    (StableHlo.after writeLine E (Proc.devRef .tc main_v72) : FVec Ideal S4x65536x256 .f32) (ix3 b n k)
      = Cert.WriteStep.upd ((E (Proc.devRef .tc main_arg0) : FVec Ideal S4x65536x256 .f32) (ix3 b n k))
          ((E (Proc.devRef .tc main_v58) : FVec Ideal S4x65536 .f32) (ix2 b n))
          ((E (Proc.devRef .tc main_arg7) : FVec Ideal S4x256 .f32) (ix2 b k))
          ((E (Proc.devRef .tc main_arg8) : FVec Ideal S4x256 .f32) (ix2 b k)) := by
  simp (disch := decide) only [writeLine, StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']
  exact update_fn _ _ _ _ b n k

section Run

variable (m : (ℓ : Loc nD τ sig) → Buf (Elt Ideal) ℓ) (ρ : Dev nD → PrngReg)

/-- The weighting the array code computes on core `c`. -/
def weighting (c : Dev nD) : FVec Ideal S4x65536 .f32 :=
  StableHlo.after (List.flatten (lead (F := Ideal))) (StableHlo.launchContents m c) (Proc.devRef .tc main_v58)

/-- An argument the update reads is, after the first part, what it was at the start. -/
theorem found (c : Dev nD) (r : Ref sig .tc) (hr : r = main_arg0 ∨ r = main_arg7 ∨ r = main_arg8)
    (hk : StableHlo.after (List.flatten (stretches (F := Ideal))) (StableHlo.launchContents m c) (Proc.devRef .tc r)
      = StableHlo.launchContents m c (Proc.devRef .tc r)) :
    StableHlo.after (List.flatten (lead (F := Ideal))) (StableHlo.launchContents m c) (Proc.devRef .tc r)
      = StableHlo.launchContents m c (Proc.devRef .tc r) :=
  (write_keeps _ r hr).symm.trans ((after_split _ r).symm.trans hk)

/-- The result is the written memory of the arguments and the weighting. -/
theorem result_eq (c : Dev nD) :
    (StableHlo.after (List.flatten (stretches (F := Ideal))) (StableHlo.launchContents m c) (Proc.devRef .tc main_v72) : FVec Ideal S4x65536x256 .f32)
      = Cert.WriteStep.written (m ((c.tc : Thread nD τ).loc main_arg0)) (weighting m c)
          (m ((c.tc : Thread nD τ).loc main_arg7)) (m ((c.tc : Thread nD τ).loc main_arg8)) := by
  rw [after_split]
  funext i
  obtain ⟨b, n, k, rfl⟩ : ∃ (b : Fin 4) (n : Fin 65536) (k : Fin 256), i = ix3 b n k := ⟨i 0, i 1, i 2, eq_ix3 i⟩
  rw [update_at, found m c main_arg0 (.inl rfl) (kept_arg0 _), found m c main_arg7 (.inr (.inl rfl)) (kept_arg7 _),
    found m c main_arg8 (.inr (.inr rfl)) (kept_arg8 _)]
  rfl

/-- The reference's run: it terminates without a fault with the result at the written memory and the arguments
    as they were. -/
theorem run_value : θ_run defs (onTc (τ := τ) (main (F := Ideal))) ⟨m, fun _ => 0, ρ⟩ fun r => ∀ c : Dev nD,
      r.2.mem ((c.tc : Thread nD τ).loc main_v72)
        = Cert.WriteStep.written (m ((c.tc : Thread nD τ).loc main_arg0)) (weighting m c)
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c main_v72).trans (result_eq m c),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩) (run_line m ρ)

end Run

end Cert.ReferenceIdeal.Val

end
-- ==== Proof.Weighting.lean ====
/-
  The two programs compute one weighting.

  Up to the normalisation both programs run the same 121 host operations, with the same constants, in the same
  order, over buffers named alike.  Folding each line over its own launch memory and reading the weighting's
  buffer gives, on each side, one and the same nest of array operations applied to the arguments the line reads
  (the memory, the key, its strength, the interpolation weight, the shift taps, the sharpening exponent, the previous weighting
  and the two index vectors); where the arguments agree, so do the weightings.  No property of the numbers is
  used: this holds at any interpretation of the floats.
-/
import proofs.«173984_j51049981280452_1_alg».proof.Proof.KernelLine
import proofs.«173984_j51049981280452_1_alg».proof.Proof.RefHost

set_option maxRecDepth 16384

noncomputable section

namespace Cert.Weighting

open Idealize.ShloMosaic Idealize.ShloMosaic.TcCoe Idealize.SL.Sem Idealize.ShloMosaic.HostLine

variable {F : FTy → Type} [FloatOps F]

set_option maxHeartbeats 4000000 in
/-- From buffers that agree on the nine arguments the weighting depends on, the two lines leave the same weighting. -/
theorem same_weighting (VK : Valuation Cert.KernelIdeal.τ Cert.KernelIdeal.sig (Elt F)) (VR : Valuation Cert.ReferenceIdeal.τ Cert.ReferenceIdeal.sig (Elt F))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5))
    (h6 : VR (Proc.devRef .tc Cert.ReferenceIdeal.main_arg6) = VK (Proc.devRef .tc Cert.KernelIdeal.main_arg6))
    (h9 : VR (Proc.devRef .tc Cert.ReferenceIdeal.main_arg9) = VK (Proc.devRef .tc Cert.KernelIdeal.main_arg9))
    (h10 : VR (Proc.devRef .tc Cert.ReferenceIdeal.main_arg10) = VK (Proc.devRef .tc Cert.KernelIdeal.main_arg10)) :
    (StableHlo.after (List.flatten [Cert.ReferenceIdeal.Host.takeRows (F := F), Cert.ReferenceIdeal.Host.dotLine (F := F), Cert.ReferenceIdeal.Host.rowNorms (F := F), Cert.ReferenceIdeal.Host.keyShift (F := F), Cert.ReferenceIdeal.Host.keyNorm (F := F), Cert.ReferenceIdeal.Host.cosLine (F := F), Cert.ReferenceIdeal.Host.takeCos (F := F), Cert.ReferenceIdeal.Host.shiftLine (F := F), Cert.ReferenceIdeal.Host.sharpen (F := F)]) VR (Proc.devRef .tc Cert.ReferenceIdeal.main_v58) : FVec F Cert.KernelIdeal.S4x65536 .f32)
      = StableHlo.after (Cert.KernelIdeal.Val.lead (F := F)) VK (Proc.devRef .tc Cert.KernelIdeal.main_v58) := by
  simp (disch := decide) only [Cert.KernelIdeal.Val.lead, Cert.KernelIdeal.Val.shiftSharpen,
      Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6,
      Cert.ReferenceIdeal.Host.takeRows, Cert.ReferenceIdeal.Host.dotLine, Cert.ReferenceIdeal.Host.rowNorms, Cert.ReferenceIdeal.Host.keyShift, Cert.ReferenceIdeal.Host.keyNorm, Cert.ReferenceIdeal.Host.cosLine, Cert.ReferenceIdeal.Host.takeCos, Cert.ReferenceIdeal.Host.shiftLine, Cert.ReferenceIdeal.Host.sharpen,
      List.flatten_cons, List.flatten_nil, List.append_nil, List.cons_append, List.nil_append,
      StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne', Cert.KernelIdeal.Val.joined_result, Cert.ReferenceIdeal.Host.joined_result]
  rw [h0, h1, h2, h3, h4, h5, h6, h9, h10]
  rfl

end Cert.Weighting

end
-- ==== Proof.lean ====
/-
  The write step of a memory-augmented network, on the device and in plain array code: the claim and its parts.

  Both programs compute one and the same write weighting w[b, n] by the same host operations (cosine
  similarity against sixteen representative rows, a gather by cluster id, interpolation, a circular shift,
  sharpening, normalisation) and then update the memory by
      new[b, n, k] = mem[b, n, k] * (1 - w[b, n] * e[b, k]) + w[b, n] * a[b, k].
  The device program does the update in a kernel launched over 4 x 32 blocks of 2048 rows; the array code
  does it by broadcasting.  Each program runs to the end without a fault and leaves its arguments as they
  were; nothing was rewritten on the way to the idealized kernel; and on the extended reals the two results
  are equal entry by entry, with no condition on the inputs: the update is the same expression of the same
  four numbers on both sides, and the weighting is the same function of the arguments.
-/
import proofs.«173984_j51049981280452_1_alg».proof.Defs
import proofs.«173984_j51049981280452_1_alg».proof.Proof.WriteFrameBits
import proofs.«173984_j51049981280452_1_alg».proof.Proof.WriteFrameIdeal
import proofs.«173984_j51049981280452_1_alg».proof.Proof.RefHost
import proofs.«173984_j51049981280452_1_alg».proof.Proof.WriteValue
import proofs.«173984_j51049981280452_1_alg».proof.Proof.RefValue
import proofs.«173984_j51049981280452_1_alg».proof.Proof.Weighting
import proofs.«173984_j51049981280452_1_alg».proof.Proof.Gen.Pre_finite_inputs

noncomputable section

namespace Cert.Proof

open Idealize.ShloMosaic Idealize.SL.Sem

/-- The device program at the word level runs to the end and keeps its arguments. -/
theorem frame_bits : Cert.frame_Kernel := fun m ρ _ => Cert.Kernel.Frm.args_kept m ρ

/-- So does its idealization. -/
theorem frame_ideal : Cert.frame_KernelIdeal := fun m ρ _ => Cert.KernelIdeal.Frm.args_kept m ρ

/-- So does the array code. -/
theorem frame_ref : Cert.frame_ReferenceIdeal := fun m ρ _ => Cert.ReferenceIdeal.Host.args_kept m ρ

/-- The idealized kernel is the kernel's own text read on the extended reals: no operation was rewritten. -/
theorem preserves : Cert.preserves_Kernel_KernelIdeal := trivial

/-- On the extended reals both programs end with the written memory of the arguments and the weighting: the kernel's
    blocks assemble it, the array code's broadcasts spell it, and the weighting is the same on both sides because the
    arguments are. -/
theorem algebraic : Cert.algebraic_KernelIdeal_ReferenceIdeal := by
  intro m ρ m' ρ' _ hagree
  refine ⟨fun c => Cert.WriteStep.written
      (m ((c.tc : Thread Cert.KernelIdeal.nD Cert.KernelIdeal.τ).loc Cert.KernelIdeal.main_arg0))
      (Cert.KernelIdeal.Val.weighting m c)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Val.run_value m ρ, ?_⟩
  refine (θ_run Cert.ReferenceIdeal.defs _ _).mono (fun r h c => ⟨((h c).1).trans ?_, (h c).2⟩)
    (Cert.ReferenceIdeal.Val.run_value m' ρ')
  obtain ⟨a0, a1, a2, a3, a4, a5, a6, a7, a8, a9, a10⟩ := hagree c
  rw [a0, a7, a8]
  refine congrArg (fun w => Cert.WriteStep.written _ w _ _) ?_
  unfold Cert.ReferenceIdeal.Val.weighting Cert.KernelIdeal.Val.weighting
  exact Cert.Weighting.same_weighting (fun b => m (c, b)) (StableHlo.launchContents m' c) a0 a1 a2 a3 a4 a5 a6 a9 a10

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
